-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x16x64 : Shape := ⟨3, ![1024, 16, 64]⟩
abbrev S1024x1024 : Shape := ⟨2, ![1024, 1024]⟩
abbrev S256x1024 : Shape := ⟨2, ![256, 1024]⟩
abbrev S512x16x64 : Shape := ⟨3, ![512, 16, 64]⟩
abbrev S16x512x64 : Shape := ⟨3, ![16, 512, 64]⟩
abbrev S16x64x512 : Shape := ⟨3, ![16, 64, 512]⟩
abbrev S512x64 : Shape := ⟨2, ![512, 64]⟩
abbrev S16x128x64 : Shape := ⟨3, ![16, 128, 64]⟩
abbrev S16x64x128 : Shape := ⟨3, ![16, 64, 128]⟩
abbrev S128x64 : Shape := ⟨2, ![128, 64]⟩
abbrev S128x128 : Shape := ⟨2, ![128, 128]⟩
abbrev S128x1x128 : Shape := ⟨3, ![128, 1, 128]⟩
abbrev S128x64x128 : Shape := ⟨3, ![128, 64, 128]⟩
abbrev S1x128x64 : Shape := ⟨3, ![1, 128, 64]⟩
abbrev S1x64x128 : Shape := ⟨3, ![1, 64, 128]⟩
abbrev S64x128 : Shape := ⟨2, ![64, 128]⟩
abbrev S128x64x1 : Shape := ⟨3, ![128, 64, 1]⟩
abbrev S512x1088 : Shape := ⟨2, ![512, 1088]⟩

abbrev nBuf : Space → Nat
  | .hbm => 10
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x16x64, .f32⟩
  | .hbm, ⟨3, _⟩ => ⟨S1024x1024, .f32⟩
  | .hbm, ⟨4, _⟩ => ⟨S512x1024, .f32⟩
  | .hbm, ⟨5, _⟩ => ⟨S512x16x64, .f32⟩
  | .hbm, ⟨6, _⟩ => ⟨S16x512x64, .f32⟩
  | .hbm, ⟨7, _⟩ => ⟨S16x64x512, .f32⟩
  | .hbm, ⟨8, _⟩ => ⟨S512x64, .f32⟩
  | .hbm, ⟨9, _⟩ => ⟨S512x1088, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S16x128x64, .f32⟩
  | .local _ .vmem, ⟨6, _⟩ => ⟨S16x128x64, .f32⟩
  | .local _ .vmem, ⟨7, _⟩ => ⟨S16x64x128, .f32⟩
  | .local _ .vmem, ⟨8, _⟩ => ⟨S16x64x128, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32_72 : BitVec 32 := 3#32
  let v235 : BitVec 1 := Scalar.cmpi .eq arg1 c3_i32_72
  let v236 : BitVec 32 := Scalar.extui v235
  let c0_i32_73 : BitVec 32 := 0#32
  let v237 : BitVec 1 := Scalar.cmpi .ne v236 c0_i32_73
  v237

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S1024x64x16_S1024x16x64_0_2_1 : S1024x64x16.Transposes [0, 2, 1] S1024x16x64
  shapeCasts_S1024x16x64_S1024x1024 : S1024x16x64.ShapeCasts S1024x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x16x64 : S512x1024.ShapeCasts S512x16x64
  transposes_S512x16x64_S16x512x64_1_0_2 : S512x16x64.Transposes [1, 0, 2] S16x512x64
  transposes_S512x16x64_S16x64x512_1_2_0 : S512x16x64.Transposes [1, 2, 0] S16x64x512
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S128x128_d0_w32 : S128x128.Iotas .tc 32 [0]
  iota_S128x128_d1_w32 : S128x128.Iotas .tc 32 [1]
  natLt_1_32 : 1 < 32
  shapeCasts_S128x128_S128x1x128 : S128x128.ShapeCasts S128x1x128
  inb_S16x128x64_S1x128x64_0_0_0 : ∀ a, (![0, 0, 0] : Fin 3 → Nat) a + S1x128x64.size a ≤ S16x128x64.size a
  h_S1x128x64 : 0 < S1x128x64.numel
  shapeCasts_S1x128x64_S128x64 : S1x128x64.ShapeCasts S128x64
  inb_S16x64x128_S1x64x128_0_0_0 : ∀ a, (![0, 0, 0] : Fin 3 → Nat) a + S1x64x128.size a ≤ S16x64x128.size a
  h_S1x64x128 : 0 < S1x64x128.numel
  shapeCasts_S1x64x128_S64x128 : S1x64x128.ShapeCasts S64x128
  shapeCasts_S128x64_S128x64x1 : S128x64.ShapeCasts S128x64x1
  shapeCasts_S64x128_S1x64x128 : S64x128.ShapeCasts S1x64x128
  broadcasts_S128x64x1_S128x64x128 : S128x64x1.Broadcasts S128x64x128
  broadcasts_S1x64x128_S128x64x128 : S1x64x128.Broadcasts S128x64x128
  inb_S16x128x64_S1x128x64_1_0_0 : ∀ a, (![1, 0, 0] : Fin 3 → Nat) a + S1x128x64.size a ≤ S16x128x64.size a
  inb_S16x64x128_S1x64x128_1_0_0 : ∀ a, (![1, 0, 0] : Fin 3 → Nat) a + S1x64x128.size a ≤ S16x64x128.size a
  inb_S16x128x64_S1x128x64_2_0_0 : ∀ a, (![2, 0, 0] : Fin 3 → Nat) a + S1x128x64.size a ≤ S16x128x64.size a
  inb_S16x64x128_S1x64x128_2_0_0 : ∀ a, (![2, 0, 0] : Fin 3 → Nat) a + S1x64x128.size a ≤ S16x64x128.size a
  inb_S16x128x64_S1x128x64_3_0_0 : ∀ a, (![3, 0, 0] : Fin 3 → Nat) a + S1x128x64.size a ≤ S16x128x64.size a
  inb_S16x64x128_S1x64x128_3_0_0 : ∀ a, (![3, 0, 0] : Fin 3 → Nat) a + S1x64x128.size a ≤ S16x64x128.size a
  inb_S16x128x64_S1x128x64_4_0_0 : ∀ a, (![4, 0, 0] : Fin 3 → Nat) a + S1x128x64.size a ≤ S16x128x64.size a
  inb_S16x64x128_S1x64x128_4_0_0 : ∀ a, (![4, 0, 0] : Fin 3 → Nat) a + S1x64x128.size a ≤ S16x64x128.size a
  inb_S16x128x64_S1x128x64_5_0_0 : ∀ a, (![5, 0, 0] : Fin 3 → Nat) a + S1x128x64.size a ≤ S16x128x64.size a
  inb_S16x64x128_S1x64x128_5_0_0 : ∀ a, (![5, 0, 0] : Fin 3 → Nat) a + S1x64x128.size a ≤ S16x64x128.size a
  inb_S16x128x64_S1x128x64_6_0_0 : ∀ a, (![6, 0, 0] : Fin 3 → Nat) a + S1x128x64.size a ≤ S16x128x64.size a
  inb_S16x64x128_S1x64x128_6_0_0 : ∀ a, (![6, 0, 0] : Fin 3 → Nat) a + S1x64x128.size a ≤ S16x64x128.size a
  inb_S16x128x64_S1x128x64_7_0_0 : ∀ a, (![7, 0, 0] : Fin 3 → Nat) a + S1x128x64.size a ≤ S16x128x64.size a
  inb_S16x64x128_S1x64x128_7_0_0 : ∀ a, (![7, 0, 0] : Fin 3 → Nat) a + S1x64x128.size a ≤ S16x64x128.size a
  inb_S16x128x64_S1x128x64_8_0_0 : ∀ a, (![8, 0, 0] : Fin 3 → Nat) a + S1x128x64.size a ≤ S16x128x64.size a
  inb_S16x64x128_S1x64x128_8_0_0 : ∀ a, (![8, 0, 0] : Fin 3 → Nat) a + S1x64x128.size a ≤ S16x64x128.size a
  inb_S16x128x64_S1x128x64_9_0_0 : ∀ a, (![9, 0, 0] : Fin 3 → Nat) a + S1x128x64.size a ≤ S16x128x64.size a
  inb_S16x64x128_S1x64x128_9_0_0 : ∀ a, (![9, 0, 0] : Fin 3 → Nat) a + S1x64x128.size a ≤ S16x64x128.size a
  inb_S16x128x64_S1x128x64_10_0_0 : ∀ a, (![10, 0, 0] : Fin 3 → Nat) a + S1x128x64.size a ≤ S16x128x64.size a
  inb_S16x64x128_S1x64x128_10_0_0 : ∀ a, (![10, 0, 0] : Fin 3 → Nat) a + S1x64x128.size a ≤ S16x64x128.size a
  inb_S16x128x64_S1x128x64_11_0_0 : ∀ a, (![11, 0, 0] : Fin 3 → Nat) a + S1x128x64.size a ≤ S16x128x64.size a
  inb_S16x64x128_S1x64x128_11_0_0 : ∀ a, (![11, 0, 0] : Fin 3 → Nat) a + S1x64x128.size a ≤ S16x64x128.size a
  inb_S16x128x64_S1x128x64_12_0_0 : ∀ a, (![12, 0, 0] : Fin 3 → Nat) a + S1x128x64.size a ≤ S16x128x64.size a
  inb_S16x64x128_S1x64x128_12_0_0 : ∀ a, (![12, 0, 0] : Fin 3 → Nat) a + S1x64x128.size a ≤ S16x64x128.size a
  inb_S16x128x64_S1x128x64_13_0_0 : ∀ a, (![13, 0, 0] : Fin 3 → Nat) a + S1x128x64.size a ≤ S16x128x64.size a
  inb_S16x64x128_S1x64x128_13_0_0 : ∀ a, (![13, 0, 0] : Fin 3 → Nat) a + S1x64x128.size a ≤ S16x64x128.size a
  inb_S16x128x64_S1x128x64_14_0_0 : ∀ a, (![14, 0, 0] : Fin 3 → Nat) a + S1x128x64.size a ≤ S16x128x64.size a
  inb_S16x64x128_S1x64x128_14_0_0 : ∀ a, (![14, 0, 0] : Fin 3 → Nat) a + S1x64x128.size a ≤ S16x64x128.size a
  inb_S16x128x64_S1x128x64_15_0_0 : ∀ a, (![15, 0, 0] : Fin 3 → Nat) a + S1x128x64.size a ≤ S16x128x64.size a
  inb_S16x64x128_S1x64x128_15_0_0 : ∀ a, (![15, 0, 0] : Fin 3 → Nat) a + S1x64x128.size a ≤ S16x64x128.size a
  broadcasts_S128x1x128_S128x64x128 : S128x1x128.Broadcasts S128x64x128
  reduces_S128x64x128_S128x64 : S128x64x128.Reduces [2] S128x64
  concatenates_S512x1024_S512x64_S512x1088_d1 : Shape.Concatenates [S512x1024, S512x64] S512x1088 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x64.size a ≤ S16x512x64.size a
  hwx1_0 : ∀ i : grid1.Coords, EltTy.bits .f32 = 32 ∨ (Rect.block (s := S16x512x64) S16x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x64x128.size a ≤ S16x64x512.size a
  hwx1_1 : ∀ i : grid1.Coords, EltTy.bits .f32 = 32 ∨ (Rect.block (s := S16x64x512) S16x64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S16x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S16x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x512 : Shape := ⟨2, ![512, 512]⟩
abbrev S512x512x1 : Shape := ⟨3, ![512, 512, 1]⟩
abbrev S512x64 : Shape := ⟨2, ![512, 64]⟩
abbrev S512x1088 : Shape := ⟨2, ![512, 1088]⟩

abbrev nBuf : Space → Nat
  | .hbm => 31
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512x1, .f32⟩
  | .hbm, ⟨26, _⟩ => ⟨S512x512x64, .f32⟩
  | .hbm, ⟨27, _⟩ => ⟨S512x512x64, .f32⟩
  | .hbm, ⟨28, _⟩ => ⟨S_, .f32⟩
  | .hbm, ⟨29, _⟩ => ⟨S512x64, .f32⟩
  | .hbm, ⟨30, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512x1_S512x512x64_0_1_2 : S512x512x1.BroadcastsInDim S512x512x64 (![0, 1, 2] : Fin 3 → Fin S512x512x64.rank)
  reducesTo_S512x512x64_S512x64_d1 : S512x512x64.ReducesTo [1] S512x64
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.K.R0.lean ====
/- The first pallas_call of the kernel program as printed: x · T' computed one block of 256 rows per grid point. What the
   body leaves in the result's staging buffer is the matrix product of the two blocks it loads; the left block moves
   with the grid point, the right operand is whole and is fetched once. -/
import proofs.«111438_j33414845562989_2_alg».proof.Proof.Gen.Kernel.Launch
import proofs.«111438_j33414845562989_2_alg».proof.Proof.Gen.Kernel.Skeleton
import proofs.«111438_j33414845562989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: the projection, one block of 256 rows per grid point

Stated at a parameter `V`: the TensorCore's buffer contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 256 rows of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole right operand, fetched once, is in its staging buffer at every point: its index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S256x1024 := Rect.unit (s := S256x1024) ![0, 0] S256x1024.size inb_S256x1024_S256x1024_0_0
abbrev r0_b : Rect S1024x1024 := Rect.unit (s := S1024x1024) ![0, 0] S1024x1024.size inb_S1024x1024_S1024x1024_0_0

/-- What the body leaves in the result's staging buffer: its one store, the product of the two loaded blocks. -/
def out0_2 (x0 : Vec F S256x1024 .f32) (x1 : Vec F S1024x1024 .f32) : Vec F S256x1024 .f32 :=
  View.canon [⟨r0_a, k0_pay1 (View.ld x0 r0_a) (View.ld x1 r0_b)⟩]

/-- The one store covers the buffer. -/
theorem cover0_2 (p0 : Vec F S256x1024 .f32) (y : S256x1024.Idx) :
    ∃ pc ∈ ([⟨r0_a, p0⟩] : List (View.Piece (Elt F) S256x1024 .f32)), y ∈ pc.1.set :=
  View.cover_of_tiled [⟨r0_a, p0⟩] S256x1024.size (by rfl) y

set_option maxHeartbeats 1000000 in
/-- The body on whole staging memrefs: the inputs' stay as they were, the result's ends at `out0_2` of the inputs'. -/
theorem sound_kernel0 (c : Dev nD) (E : Set ℕ) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block and the result's at the product of the two blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Defs.lean ====
/- The second pallas_call of the kernel program as printed: what its runs are stated over — the blocks, the two branch
   conditions in closed form over the grid, where the result window is idle, and the memrefs the body is called with. -/
import proofs.«111438_j33414845562989_2_alg».proof.Proof.Gen.Kernel.Launch
import proofs.«111438_j33414845562989_2_alg».proof.Proof.Gen.Kernel.Skeleton
import proofs.«111438_j33414845562989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: pairwise distances, a grid of 4 × 4 blocks, the partial sums kept in a scratch buffer

The grid point is (i, kv), kv the fast axis. The body zeroes the scratch when kv = 0, adds the block's contribution,
and copies the scratch to the result's staging buffer when kv = 3. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block (moves with i only) is in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block (moves with kv) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "kv = 0", as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "kv = 3", as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S128x64 .f32 := (Memref.whole cc1_stg2_0 : Memref sig .tc .vmem S128x64 .f32).view
abbrev ms1_0 (t : Fin cfg1.N) : Memref sig .tc .vmem S16x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The scratch accumulator, a whole scoped buffer of the kernel's own. -/
abbrev scM1_0 : Memref sig .tc .vmem S128x64 .f32 := Memref.whole cc1_scratch0
abbrev VS1_0 : View sig .tc .vmem S128x64 .f32 := scM1_0.view

/-- The scoped buffers the second pipeline does not stage: the first pallas_call's five staging buffers, each whole at
    some contents, beside the scratch accumulator in the state `P`. -/
def scoped1With (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P)

/-- The class's invariant with the scratch as a memref owned at some contents. -/
theorem PhiA1_eq (c : Dev nD) :
    (Pipeline.ΦA spec1 c : sProp 𝕄)
      = iprop(scoped1With c iprop(∃ d, owns (c : Thread nD τ) scM1_0 fullShare d) ∗ (∃ r, prngReg c r)) := by
  unfold Pipeline.ΦA scoped1With; rw [scopedRest1_eq]; simp only [scM1_0, owns_whole]; try rfl

end Cert.Kernel.Hand

end
-- ==== Proof.K.R1RunA.lean ====
/- The second pallas_call's body run whole at a grid point with kv = 0: the scratch accumulator is zeroed, then the
   block's contribution is added; the result's staging buffer is not touched. -/
import proofs.«111438_j33414845562989_2_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with kv = 0 (and kv ≠ 3): on whole staging memrefs, the two input blocks at their contents, the
    result's buffer at contents handed back untouched, the scratch at anything, it runs to the continuation holding the
    inputs as they were and the scratch with the pieces its stores wrote (found by the run). -/
noncomputable def kernelRun1_A (c : Dev nD) (i : grid1.Coords) (arg2 : Memref sig .tc .vmem S16x128x64 .f32) (harg2 : arg2.IsWhole) (arg3 : Memref sig .tc .vmem S16x64x128 .f32) (harg3 : arg3.IsWhole)
    (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S16x128x64 .f32) (x1 : Vec F S16x64x128 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunB.lean ====
/- The second pallas_call's body run whole at a grid point with kv = 1 or 2: the block's contribution is added to the
   scratch accumulator; the result's staging buffer is not touched. -/
import proofs.«111438_j33414845562989_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with kv = 1 or 2: the scratch holds what the point before left; the result's buffer is handed
    back untouched; the scratch ends with the pieces the run finds. -/
noncomputable def kernelRun1_B (c : Dev nD) (i : grid1.Coords) (arg2 : Memref sig .tc .vmem S16x128x64 .f32) (harg2 : arg2.IsWhole) (arg3 : Memref sig .tc .vmem S16x64x128 .f32) (harg3 : arg3.IsWhole)
    (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S16x128x64 .f32) (x1 : Vec F S16x64x128 .f32) (xs0 : Vec F S128x64 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R1RunC.lean ====
/- The second pallas_call's body run whole at a grid point with kv = 3: the block's contribution is added to the scratch
   accumulator, which is then copied into the result's staging buffer. -/
import proofs.«111438_j33414845562989_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with kv = 3: the scratch holds what the point before left; the result's staging buffer, at
    anything before, ends with the pieces the run finds (the copy of the finished accumulator). -/
noncomputable def kernelRun1_C (c : Dev nD) (i : grid1.Coords) (arg2 : Memref sig .tc .vmem S16x128x64 .f32) (harg2 : arg2.IsWhole) (arg3 : Memref sig .tc .vmem S16x64x128 .f32) (harg3 : arg3.IsWhole)
    (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R1.lean ====
/- The second pallas_call of the kernel program as printed, put together: what the scratch accumulator and the result's
   staging buffer hold after every grid point (a recursion on the point: zeroed and added to when kv = 0, added to when
   kv = 1, 2, added to and copied out when kv = 3), the region's invariant that carries the scratch from a point to
   the next, the proof data and the body obligation. -/
import proofs.«111438_j33414845562989_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the scratch accumulator and in the result's staging buffer -/

/-- kv = 0: the pieces written into the scratch cover it. -/
theorem scover1_A (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S16x128x64 .f32) (x1 : Vec F S16x64x128 .f32) (y : S128x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S128x64.size (by sl_kernel_rfl) y

/-- kv = 0: what the scratch holds afterwards. -/
def sout1_A (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S16x128x64 .f32) (x1 : Vec F S16x64x128 .f32) : Vec F S128x64 .f32 :=
  VS1_0.read (Elt F) (VS1_0.writes (Elt F) VS1_0.junk (kernelRun1_A c i arg2 harg2 arg3 harg3 arg4 harg4 arg5 harg5 hc0 hc1 x0 x1).1)

/-- kv = 1, 2: the pieces written into the scratch cover it. -/
theorem scover1_B (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S16x128x64 .f32) (x1 : Vec F S16x64x128 .f32) (xs0 : Vec F S128x64 .f32) (y : S128x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S128x64.size (by sl_kernel_rfl) y

/-- kv = 1, 2: what the scratch holds afterwards, from what it held before. -/
def sout1_B (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S16x128x64 .f32) (x1 : Vec F S16x64x128 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).1)

/-- kv = 3: the pieces written into the result's staging buffer cover it, -/
theorem cover1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- what it holds afterwards, -/
def out1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- and the same for the scratch. -/
theorem scover1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

def sout1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

section Region1
variable (V : (c : Dev nD) → (b : Ref sig .tc) → Buf (Elt F) ((c : Thread nD τ).loc b))

/-! ## The accumulation, point by point -/

/-- What the result's staging buffer (first component; a placeholder where the body does not store into it) and the
    scratch accumulator (second component) hold after the body at position `n`: the case the closed forms select,
    over what the scratch held after position `n - 1`. -/
def outsAt1 (c : Dev nD) : (n : ℕ) → n < cfg1.N → Vec F S128x64 .f32 × Vec F S128x64 .f32
  | 0, hn => ((VO1_2.read (Elt F) VO1_2.junk), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        ((VO1_2.read (Elt F) VO1_2.junk), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        ((VO1_2.read (Elt F) VO1_2.junk), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = ((VO1_2.read (Elt F) VO1_2.junk), sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = ((VO1_2.read (Elt F) VO1_2.junk), sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the class's before the first point; afterwards the scoped rest with the
    scratch at what the point before left in it, and the generator register at some state. -/
def PhiS1 (c : Dev nD) : (n : ℕ) → n ≤ cfg1.N → sProp 𝕄
  | 0, _ => Pipeline.ΦA spec1 c
  | n + 1, hn => iprop(scoped1With c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1With c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1With c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the scratch at
    what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      unfold scoped1With
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      unfold scoped1With
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      unfold scoped1With
      iintro ⟨⟨⟨Ha, Hb, Hc, Hd, He, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      unfold scoped1With
      iintro ⟨⟨⟨Ha, Hb, Hc, Hd, He, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  unfold scoped1With
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

end Region1

end Cert.Kernel.Hand

end
-- ==== Proof.K.Run.lean ====
/- The printed kernel program's run. @main is five segments: two host operations (the second argument transposed and
   reshaped), the projection's pallas_call, three host operations (the projection reshaped and transposed twice), the
   pairwise pallas_call, and the concatenation. The contents of every unscoped buffer at each boundary are a fold from
   the launch memory: a host stretch applies its operations, a pallas_call replaces its arrays by what its write-backs
   leave. Every execution terminates with every unscoped buffer at the last fold. -/
import proofs.«111438_j33414845562989_2_alg».proof.Proof.K.R0
import proofs.«111438_j33414845562989_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the transposition and reshape of the second argument (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pallas_call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape and the two transpositions of the projection (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final concatenation: the contents @main returns with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor
theorem hops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first pallas_call over the thread state "every unscoped buffer at the boundary's contents, the generator register at
    some state, nothing owed": its arrays split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state "every unscoped buffer at the boundary's contents, the generator register at
    some state, nothing owed": its arrays split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h1.trans (hin1 (V3 m ρ) c)
  hout c := by
    rw [Pipeline.ownSems0_none]
    have h1 : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hops0_fresh (W0 m ρ)),
    .region (reg0 m ρ),
    .host (hseg hostOps1 hostOps1_sub hops1_fresh (W2 m ρ)),
    .region (reg1 m ρ),
    .host (hseg hostOps2 hostOps2_sub hops2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every unscoped buffer of the final memory holds what the fold above computes for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Frame.lean ====
/- The frame of the kernel program as printed: each argument array, followed back through the fold of buffer contents,
   holds its launch contents at the end — a host operation writes only its own result, the first pallas_call reads the
   first argument through an input window, and neither pallas_call has the second among its arrays. -/
import proofs.«111438_j33414845562989_2_alg».proof.Proof.K.Run
import proofs.«111438_j33414845562989_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: no host operation writes one, and a pallas_call only reads them -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Hand

end
-- ==== Proof.KI.R0.lean ====
/- The first pallas_call of the idealized kernel program: x · T' computed one block of 256 rows per grid point. What the
   body leaves in the result's staging buffer is the matrix product of the two blocks it loads; the left block moves
   with the grid point, the right operand is whole and is fetched once. -/
import proofs.«111438_j33414845562989_2_alg».proof.Proof.Gen.KernelIdeal.Launch
import proofs.«111438_j33414845562989_2_alg».proof.Proof.Gen.KernelIdeal.Skeleton
import proofs.«111438_j33414845562989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: the projection, one block of 256 rows per grid point

Stated at a parameter `V`: the TensorCore's buffer contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 256 rows of the left operand is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole right operand, fetched once, is in its staging buffer at every point: its index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S256x1024 := Rect.unit (s := S256x1024) ![0, 0] S256x1024.size inb_S256x1024_S256x1024_0_0
abbrev r0_b : Rect S1024x1024 := Rect.unit (s := S1024x1024) ![0, 0] S1024x1024.size inb_S1024x1024_S1024x1024_0_0

/-- What the body leaves in the result's staging buffer: its one store, the product of the two loaded blocks. -/
def out0_2 (x0 : Vec F S256x1024 .f32) (x1 : Vec F S1024x1024 .f32) : Vec F S256x1024 .f32 :=
  View.canon [⟨r0_a, k0_pay1 (View.ld x0 r0_a) (View.ld x1 r0_b)⟩]

/-- The one store covers the buffer. -/
theorem cover0_2 (p0 : Vec F S256x1024 .f32) (y : S256x1024.Idx) :
    ∃ pc ∈ ([⟨r0_a, p0⟩] : List (View.Piece (Elt F) S256x1024 .f32)), y ∈ pc.1.set :=
  View.cover_of_tiled [⟨r0_a, p0⟩] S256x1024.size (by rfl) y

set_option maxHeartbeats 1000000 in
/-- The body on whole staging memrefs: the inputs' stay as they were, the result's ends at `out0_2` of the inputs'. -/
theorem sound_kernel0 (c : Dev nD) (E : Set ℕ) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each input's
    buffer at its block and the result's at the product of the two blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Defs.lean ====
/- The second pallas_call of the idealized kernel program: what its runs are stated over — the blocks, the two branch
   conditions in closed form over the grid, where the result window is idle, and the memrefs the body is called with. -/
import proofs.«111438_j33414845562989_2_alg».proof.Proof.Gen.KernelIdeal.Launch
import proofs.«111438_j33414845562989_2_alg».proof.Proof.Gen.KernelIdeal.Skeleton
import proofs.«111438_j33414845562989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: pairwise distances, a grid of 4 × 4 blocks, the partial sums kept in a scratch buffer

The grid point is (i, kv), kv the fast axis. The body zeroes the scratch when kv = 0, adds the block's contribution,
and copies the scratch to the result's staging buffer when kv = 3. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block (moves with i only) is in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block (moves with kv) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "kv = 0", as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "kv = 3", as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S128x64 .f32 := (Memref.whole cc1_stg2_0 : Memref sig .tc .vmem S128x64 .f32).view
abbrev ms1_0 (t : Fin cfg1.N) : Memref sig .tc .vmem S16x128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The scratch accumulator, a whole scoped buffer of the kernel's own. -/
abbrev scM1_0 : Memref sig .tc .vmem S128x64 .f32 := Memref.whole cc1_scratch0
abbrev VS1_0 : View sig .tc .vmem S128x64 .f32 := scM1_0.view

/-- The scoped buffers the second pipeline does not stage: the first pallas_call's five staging buffers, each whole at
    some contents, beside the scratch accumulator in the state `P`. -/
def scoped1With (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P)

/-- The class's invariant with the scratch as a memref owned at some contents. -/
theorem PhiA1_eq (c : Dev nD) :
    (Pipeline.ΦA spec1 c : sProp 𝕄)
      = iprop(scoped1With c iprop(∃ d, owns (c : Thread nD τ) scM1_0 fullShare d) ∗ (∃ r, prngReg c r)) := by
  unfold Pipeline.ΦA scoped1With; rw [scopedRest1_eq]; simp only [scM1_0, owns_whole]; try rfl

end Cert.KernelIdeal.Hand

end
-- ==== Proof.KI.R1RunA.lean ====
/- The second pallas_call's body run whole at a grid point with kv = 0: the scratch accumulator is zeroed, then the
   block's contribution is added; the result's staging buffer is not touched. -/
import proofs.«111438_j33414845562989_2_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with kv = 0 (and kv ≠ 3): on whole staging memrefs, the two input blocks at their contents, the
    result's buffer at contents handed back untouched, the scratch at anything, it runs to the continuation holding the
    inputs as they were and the scratch with the pieces its stores wrote (found by the run). -/
noncomputable def kernelRun1_A (c : Dev nD) (i : grid1.Coords) (arg2 : Memref sig .tc .vmem S16x128x64 .f32) (harg2 : arg2.IsWhole) (arg3 : Memref sig .tc .vmem S16x64x128 .f32) (harg3 : arg3.IsWhole)
    (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S16x128x64 .f32) (x1 : Vec F S16x64x128 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunB.lean ====
/- The second pallas_call's body run whole at a grid point with kv = 1 or 2: the block's contribution is added to the
   scratch accumulator; the result's staging buffer is not touched. -/
import proofs.«111438_j33414845562989_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with kv = 1 or 2: the scratch holds what the point before left; the result's buffer is handed
    back untouched; the scratch ends with the pieces the run finds. -/
noncomputable def kernelRun1_B (c : Dev nD) (i : grid1.Coords) (arg2 : Memref sig .tc .vmem S16x128x64 .f32) (harg2 : arg2.IsWhole) (arg3 : Memref sig .tc .vmem S16x64x128 .f32) (harg3 : arg3.IsWhole)
    (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S16x128x64 .f32) (x1 : Vec F S16x64x128 .f32) (xs0 : Vec F S128x64 .f32) :
    { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, fun xi2 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunC.lean ====
/- The second pallas_call's body run whole at a grid point with kv = 3: the block's contribution is added to the scratch
   accumulator, which is then copied into the result's staging buffer. -/
import proofs.«111438_j33414845562989_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at a point with kv = 3: the scratch holds what the point before left; the result's staging buffer, at
    anything before, ends with the pieces the run finds (the copy of the finished accumulator). -/
noncomputable def kernelRun1_C (c : Dev nD) (i : grid1.Coords) (arg2 : Memref sig .tc .vmem S16x128x64 .f32) (harg2 : arg2.IsWhole) (arg3 : Memref sig .tc .vmem S16x64x128 .f32) (harg3 : arg3.IsWhole)
    (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pairwise_kernel i arg2 harg2 arg3 harg3 arg4 harg4 arg5 harg5) K } := by
  refine ⟨?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1.lean ====
/- The second pallas_call of the idealized kernel program, put together: what the scratch accumulator and the result's
   staging buffer hold after every grid point (a recursion on the point: zeroed and added to when kv = 0, added to when
   kv = 1, 2, added to and copied out when kv = 3), the region's invariant that carries the scratch from a point to
   the next, the proof data and the body obligation. -/
import proofs.«111438_j33414845562989_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the scratch accumulator and in the result's staging buffer -/

/-- kv = 0: the pieces written into the scratch cover it. -/
theorem scover1_A (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S16x128x64 .f32) (x1 : Vec F S16x64x128 .f32) (y : S128x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S128x64.size (by sl_kernel_rfl) y

/-- kv = 0: what the scratch holds afterwards. -/
def sout1_A (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S16x128x64 .f32) (x1 : Vec F S16x64x128 .f32) : Vec F S128x64 .f32 :=
  VS1_0.read (Elt F) (VS1_0.writes (Elt F) VS1_0.junk (kernelRun1_A c i arg2 harg2 arg3 harg3 arg4 harg4 arg5 harg5 hc0 hc1 x0 x1).1)

/-- kv = 1, 2: the pieces written into the scratch cover it. -/
theorem scover1_B (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S16x128x64 .f32) (x1 : Vec F S16x64x128 .f32) (xs0 : Vec F S128x64 .f32) (y : S128x64.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S128x64.size (by sl_kernel_rfl) y

/-- kv = 1, 2: what the scratch holds afterwards, from what it held before. -/
def sout1_B (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec F S16x128x64 .f32) (x1 : Vec F S16x64x128 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).1)

/-- kv = 3: the pieces written into the result's staging buffer cover it, -/
theorem cover1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- what it holds afterwards, -/
def out1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- and the same for the scratch. -/
theorem scover1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

def sout1_C (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S16x128x64 .f32) (x1 : Vec F S16x64x128 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

section Region1
variable (V : (c : Dev nD) → (b : Ref sig .tc) → Buf (Elt F) ((c : Thread nD τ).loc b))

/-! ## The accumulation, point by point -/

/-- What the result's staging buffer (first component; a placeholder where the body does not store into it) and the
    scratch accumulator (second component) hold after the body at position `n`: the case the closed forms select,
    over what the scratch held after position `n - 1`. -/
def outsAt1 (c : Dev nD) : (n : ℕ) → n < cfg1.N → Vec F S128x64 .f32 × Vec F S128x64 .f32
  | 0, hn => ((VO1_2.read (Elt F) VO1_2.junk), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        ((VO1_2.read (Elt F) VO1_2.junk), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        ((VO1_2.read (Elt F) VO1_2.junk), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = ((VO1_2.read (Elt F) VO1_2.junk), sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = ((VO1_2.read (Elt F) VO1_2.junk), sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the class's before the first point; afterwards the scoped rest with the
    scratch at what the point before left in it, and the generator register at some state. -/
def PhiS1 (c : Dev nD) : (n : ℕ) → n ≤ cfg1.N → sProp 𝕄
  | 0, _ => Pipeline.ΦA spec1 c
  | n + 1, hn => iprop(scoped1With c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1With c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1With c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the scratch at
    what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      unfold scoped1With
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      unfold scoped1With
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      unfold scoped1With
      iintro ⟨⟨⟨Ha, Hb, Hc, Hd, He, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      unfold scoped1With
      iintro ⟨⟨⟨Ha, Hb, Hc, Hd, He, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  unfold scoped1With
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

end Region1

end Cert.KernelIdeal.Hand

end
-- ==== Proof.KI.Run.lean ====
/- The idealized kernel program's run. @main is five segments: two host operations (the second argument transposed and
   reshaped), the projection's pallas_call, three host operations (the projection reshaped and transposed twice), the
   pairwise pallas_call, and the concatenation. The contents of every unscoped buffer at each boundary are a fold from
   the launch memory: a host stretch applies its operations, a pallas_call replaces its arrays by what its write-backs
   leave. Every execution terminates with every unscoped buffer at the last fold. -/
import proofs.«111438_j33414845562989_2_alg».proof.Proof.KI.R0
import proofs.«111438_j33414845562989_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the transposition and reshape of the second argument (the first pallas_call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pallas_call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape and the two transpositions of the projection (the second pallas_call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pallas_call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final concatenation: the contents @main returns with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor
theorem hops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first pallas_call over the thread state "every unscoped buffer at the boundary's contents, the generator register at
    some state, nothing owed": its arrays split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state "every unscoped buffer at the boundary's contents, the generator register at
    some state, nothing owed": its arrays split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h1.trans (hin1 (V3 m ρ) c)
  hout c := by
    rw [Pipeline.ownSems0_none]
    have h1 : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hops0_fresh (W0 m ρ)),
    .region (reg0 m ρ),
    .host (hseg hostOps1 hostOps1_sub hops1_fresh (W2 m ρ)),
    .region (reg1 m ρ),
    .host (hseg hostOps2 hostOps2_sub hops2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every unscoped buffer of the final memory holds what the fold above computes for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Frame.lean ====
/- The frame of the idealized kernel program: each argument array, followed back through the fold of buffer contents,
   holds its launch contents at the end — a host operation writes only its own result, the first pallas_call reads the
   first argument through an input window, and neither pallas_call has the second among its arrays. -/
import proofs.«111438_j33414845562989_2_alg».proof.Proof.KI.Run
import proofs.«111438_j33414845562989_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched: no host operation writes one, and a pallas_call only reads them -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.KI.ValHost.lean ====
/- What each host stretch of the idealized kernel program leaves in the buffers it writes, as a term over the contents
   it found, and which buffers each stretch and each pallas_call leaves alone: the second argument transposed and
   flattened, the projection cut and transposed twice, the final joined array, the first argument untouched up to the
   join, and each pallas_call's result array at what its write-backs leave. -/
import proofs.«111438_j33414845562989_2_alg».proof.Proof.KI.Run
import proofs.«111438_j33414845562989_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first host stretch: the second argument transposed and flattened -/

/-- The flattened array is the shape cast of the transposition of the second argument as launched. -/
theorem W1_v1 (c : Dev nD) :
    W1 m ρ c (Proc.devRef .tc main_v1)
      = shapeCast S1024x1024
          (transpose S1024x16x64 [0, 2, 1] (m ((c : Thread nD τ).loc main_arg1)) transposes_S1024x64x16_S1024x16x64_0_2_1)
          shapeCasts_S1024x16x64_S1024x1024 := by
  show StableHlo.after hostOps0 (W0 m ρ c) (Proc.devRef .tc main_v1) = _
  dsimp only [hostOps0]
  after_results
  rfl

/-- The first stretch does not write the first argument. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (r := main_arg0) (by decide)
    _ = m ((c : Thread nD τ).loc main_arg0) := rfl

/-! ## The first pallas_call's result array -/

/-- The projection's array holds what the first pallas_call's write-backs leave. -/
theorem W2_v2 (c : Dev nD) : W2 m ρ c (Proc.devRef .tc main_v2) = (dat0 (V1 m ρ) c).arrAt 2 cfg0.N :=
  W2_arr m ρ c 2

/-! ## The second host stretch: the projection cut and transposed twice -/

/-- The [16, 512, 64] array is the transposition of the cut of the projection. -/
theorem W3_v4 (c : Dev nD) :
    W3 m ρ c (Proc.devRef .tc main_v4)
      = transpose S16x512x64 [1, 0, 2]
          (shapeCast S512x16x64 (W2 m ρ c (Proc.devRef .tc main_v2)) shapeCasts_S512x1024_S512x16x64)
          transposes_S512x16x64_S16x512x64_1_0_2 := by
  show StableHlo.after hostOps1 (W2 m ρ c) (Proc.devRef .tc main_v4) = _
  dsimp only [hostOps1]
  after_results
  rfl

/-- The [16, 64, 512] array is the other transposition of the same cut. -/
theorem W3_v5 (c : Dev nD) :
    W3 m ρ c (Proc.devRef .tc main_v5)
      = transpose S16x64x512 [1, 2, 0]
          (shapeCast S512x16x64 (W2 m ρ c (Proc.devRef .tc main_v2)) shapeCasts_S512x1024_S512x16x64)
          transposes_S512x16x64_S16x64x512_1_2_0 := by
  show StableHlo.after hostOps1 (W2 m ρ c) (Proc.devRef .tc main_v5) = _
  dsimp only [hostOps1]
  after_results
  rfl

/-! ## The first argument up to the join, and the second pallas_call's result array -/

/-- The first argument reaches the join as launched: the second pallas_call does not have it among its arrays, the
    second stretch does not write it, the first pallas_call only reads it, the first stretch does not write it. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg0 m ρ c

/-- The similarity array holds what the second pallas_call's write-backs leave. -/
theorem W4_v6 (c : Dev nD) : W4 m ρ c (Proc.devRef .tc main_v6) = (dat1 (V3 m ρ) c).arrAt 2 cfg1.N :=
  W4_arr m ρ c 2

/-! ## The last host stretch: the join -/

/-- The result is the first argument and the similarity array joined along the columns. -/
theorem W5_v7 (c : Dev nD) :
    W5 m ρ c (Proc.devRef .tc main_v7)
      = concatenate S512x1088 1
          [⟨S512x1024, W4 m ρ c (Proc.devRef .tc main_arg0)⟩, ⟨S512x64, W4 m ρ c (Proc.devRef .tc main_v6)⟩]
          concatenates_S512x1024_S512x64_S512x1088_d1 := by
  show StableHlo.after hostOps2 (W4 m ρ c) (Proc.devRef .tc main_v7) = _
  dsimp only [hostOps2]
  after_results

end Cert.KernelIdeal.Hand

end
-- ==== Proof.Spec.lean ====
/-
  The value both programs compute, stated once as a function of the two argument arrays on the extended reals.

  With x : [512, 1024] and T : [1024, 64, 16]:
    proj n o k   = Σ_p x(n,p) · T(p,o,k)                       (the projection, 1024 terms)
    dist n j o   = Σ_k |proj n o k − proj j o k|               (the L1 distance of rows n and j in feature o, 16 terms)
    sim  n o     = Σ_j exp(−dist n j o) · [n ≠ j]              (the similarity mass of row n, its own term masked out)
  and the result [512, 1088] is x in its first 1024 columns and sim in the last 64.
  |d| is max d (−d), the absolute value of the extended reals; sums are the commutative-monoid sums of the
  extended reals, so no order or grouping of the terms matters and nothing here needs a finiteness hypothesis.
-/
import Idealize.ShloMosaic.PureOps.Ideal
import Idealize.ShloMosaic.Lib.ValueIdx

open scoped BigOperators

noncomputable section

namespace Cert.Spec

open Idealize.ShloMosaic Idealize.ShloMosaic.ValueIdx

/-- The first argument's shape, -/
abbrev SX : Shape := ⟨2, ![512, 1024]⟩
/-- the second's, -/
abbrev ST : Shape := ⟨3, ![1024, 64, 16]⟩
/-- the result's. -/
abbrev SY : Shape := ⟨2, ![512, 1088]⟩

/-- The absolute value on the extended reals. -/
def aabs (d : EReal) : EReal := max d (-d)

/-- Row `n` of `x` against column `(o, k)` of `T`. -/
def proj (x : SX.Idx → EReal) (T : ST.Idx → EReal) (n : Fin 512) (o : Fin 64) (k : Fin 16) : EReal :=
  ∑ p : Fin 1024, x (ix2 n p) * T (ix3 p o k)

/-- The L1 distance of rows `n` and `j` of the projection, in feature `o`. -/
def dist (x : SX.Idx → EReal) (T : ST.Idx → EReal) (n j : Fin 512) (o : Fin 64) : EReal :=
  ∑ k : Fin 16, aabs (proj x T n o k - proj x T j o k)

/-- One off the diagonal, zero on it. -/
def offDiag (n j : Fin 512) : EReal := if n = j then 0 else 1

/-- The similarity mass of row `n` in feature `o`: every other row's `exp (−dist)`. -/
def sim (x : SX.Idx → EReal) (T : ST.Idx → EReal) (n : Fin 512) (o : Fin 64) : EReal :=
  ∑ j : Fin 512, Ideal.exp (-(dist x T n j o)) * offDiag n j

/-- The result at row `n`, column `q`: `x` left of column 1024, `sim` from there on. -/
def Gat (x : SX.Idx → EReal) (T : ST.Idx → EReal) (n : Fin 512) (q : Fin 1088) : EReal :=
  if h : q.val < 1024 then x (ix2 n ⟨q.val, h⟩) else sim x T n ⟨q.val - 1024, by have := q.isLt; omega⟩

/-- The result array. -/
def G (x : SX.Idx → EReal) (T : ST.Idx → EReal) : SY.Idx → EReal :=
  fun i => Gat x T ⟨(i 0).val, idx2_lt0 i⟩ ⟨(i 1).val, idx2_lt1 i⟩

end Cert.Spec

end
-- ==== Proof.KPay0.lean ====
/-
  The projection's block product read at an index: with no rounding and a zero accumulator, entry (r, q) of the
  product of a 256 x 1024 block with the 1024 x 1024 matrix is the sum over the shared axis of the products.
-/
import proofs.«111438_j33414845562989_2_alg».proof.Proof.Gen.KernelIdeal.Skeleton
import proofs.«111438_j33414845562989_2_alg».proof.Proof.Spec
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-- The dimension numbers of the block product contract axis 1 of the left operand with axis 0 of the right one. -/
abbrev D0 := dot_S256x1024_S1024x1024_S256x1024_1_0_0_1_n_n

theorem lhs0_0 (i : S256x1024.Idx) (q : D0.contr.Idx) : (D0.lhsIdx i q 0).val = (i 0).val := by
  unfold DotDims.lhsIdx
  rw [dif_neg (show ¬(0 : Fin S256x1024.rank) ∈ D0.lhsBatch by decide), dif_pos (show (0 : Fin S256x1024.rank) ∈ D0.lhsNonContracting by decide)]
  rfl
theorem lhs0_1 (i : S256x1024.Idx) (q : D0.contr.Idx) : (D0.lhsIdx i q 1).val = (q ⟨0, by decide⟩).val :=
  D0.lhsIdx_val_of_single rfl i q
theorem rhs0_0 (i : S256x1024.Idx) (q : D0.contr.Idx) : (D0.rhsIdx i q 0).val = (q ⟨0, by decide⟩).val :=
  D0.rhsIdx_val_of_single rfl i q
theorem rhs0_1 (i : S256x1024.Idx) (q : D0.contr.Idx) : (D0.rhsIdx i q 1).val = (i 1).val := by
  unfold DotDims.rhsIdx
  rw [dif_neg (show ¬(1 : Fin S1024x1024.rank) ∈ D0.rhsBatch by decide), dif_pos (show (1 : Fin S1024x1024.rank) ∈ D0.rhsNonContracting by decide)]
  rfl

/-- Entry (r, q) of the block product. -/
theorem pay0_apply (v0 : Vec Ideal S256x1024 .f32) (v2 : Vec Ideal S1024x1024 .f32) (r : Fin 256) (q : Fin 1024) :
    k0_pay1 v0 v2 (ix2 r q) = ∑ p : Fin 1024, v0 (ix2 r p) * v2 (ix2 p q) := by
  unfold k0_pay1
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 r q) ((contrEquiv1 D0 1024 rfl rfl).symm k) = ix2 r k := funext fun a => Fin.ext (by
    match a with
    | ⟨0, _⟩ => exact lhs0_0 _ _
    | ⟨1, _⟩ => exact (lhs0_1 _ _).trans hk)
  have er : D0.rhsIdx (ix2 r q) ((contrEquiv1 D0 1024 rfl rfl).symm k) = ix2 k q := funext fun a => Fin.ext (by
    match a with
    | ⟨0, _⟩ => exact (rhs0_0 _ _).trans hk
    | ⟨1, _⟩ => exact rhs0_1 _ _)
  rw [el, er]
  show v0 (ix2 r k) * (shapeCast S1024x1024 v2 shapeCasts_S1024x1024_S1024x1024) (ix2 k q) = _
  rw [shapeCast_self]

end Cert.KernelIdeal.Pay

end
-- ==== Proof.KI.Val0.lean ====
/- The first pallas_call's result array after its two grid points: the matrix product of the first argument and the
   reshaped second one. Each point writes back one block of 256 rows, which is that block of the product; the two
   blocks cover the 512 rows. -/
import proofs.«111438_j33414845562989_2_alg».proof.Proof.KI.R0
import proofs.«111438_j33414845562989_2_alg».proof.Proof.KPay0
import Idealize.ShloMosaic.Lib.Pipeline.Value
import Idealize.ShloMosaic.Lib.ValueIdx

set_option maxRecDepth 16384

open scoped BigOperators

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The product of a [512,1024] array with a [1024,1024] one, entry by entry: row `i 0` against column `i 1`. -/
def matProd (a : S512x1024.Idx → EReal) (w : S1024x1024.Idx → EReal) : S512x1024.Idx → EReal :=
  fun i => ∑ p : Fin 1024, a (ix2 ⟨(i 0).val, idx2_lt0 i⟩ p) * w (ix2 p ⟨(i 1).val, idx2_lt1 i⟩)

/-- The zero offset of a whole-buffer rectangle. -/
theorem hz0 : (![0, 0] : Fin 2 → Nat) = fun _ => 0 := funext fun a => by fin_cases a <;> rfl

/-- The printed index maps, decided over the two grid points: the left operand's block moves with the result's along
    the rows, every other block index is zero, and the result's row-block index is 0 or 1. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 1 :=
  (by decide +kernel : ∀ t : Fin grid0.N, _)

/-- Each of the two row blocks is some point's. -/
theorem idx_onto0 : ∀ q0 : Fin 2, ∃ t : Fin cfg0.N, win0_2.index t = ![q0.val, 0] :=
  (by decide +kernel : ∀ q0 : Fin 2, ∃ t : Fin grid0.N, win0_2.index t = ![q0.val, 0])

section Region0
variable (V : (c : Dev nD) → (b : Ref sig .tc) → Buf (Elt Ideal) ((c : Thread nD τ).loc b))

/-- WHAT POINT `t` WRITES BACK is block `t` of the product of the two argument arrays as the region finds them. -/
theorem flushed0_eq (c : Dev nD) (t : Fin cfg0.N) :
    (dat0 (F := Ideal) V c).flushed 2 t
      = ((cfg0.win 2).blk t).view.read (Elt Ideal) (matProd (V c main_arg0) (V c main_v1)) := by
  show (cfg0.win 2).cut (grid0.coords t) ((dat0 (F := Ideal) V c).after 2 t) = _
  rw [after0_2]
  unfold out0_2
  rw [View.canon_unit_zero hz0]
  simp only [View.ld_unit_zero (S := S256x1024) hz0, View.ld_unit_zero (S := S1024x1024) hz0]
  obtain ⟨e0, e1, e2, e3, e4, e5⟩ := idx_facts0 t
  funext j
  obtain ⟨r, q, rfl⟩ : ∃ (r : Fin 256) (q : Fin 1024), j = ix2 r q := ⟨j 0, j 1, eq_ix2 j⟩
  show k0_pay1 (iblk0 V c 0 t) (iblk0 V c 1 t) (ix2 r q)
    = matProd (V c main_arg0) (V c main_v1) (((cfg0.win 2).blk t).view.emb (ix2 r q))
  refine (Cert.KernelIdeal.Pay.pay0_apply _ _ r q).trans ?_
  unfold matProd
  refine Finset.sum_congr rfl fun p _ => ?_
  refine congrArg₂ (· * ·) ?_ ?_
  · show V c main_arg0 (((cfg0.win 0).blk t).view.emb (ix2 r p)) = V c main_arg0 _
    refine congrArg (V c main_arg0) (funext fun a => Fin.ext ?_)
    match a with
    | ⟨0, _⟩ =>
      show win0_0.index t (0 : Fin 2) * 256 + 1 * r.val = win0_2.index t (0 : Fin 2) * 256 + 1 * r.val
      omega
    | ⟨1, _⟩ =>
      show win0_0.index t (1 : Fin 2) * 1024 + 1 * p.val = p.val
      omega
  · show V c main_v1 (((cfg0.win 1).blk t).view.emb (ix2 p q)) = V c main_v1 _
    refine congrArg (V c main_v1) (funext fun a => Fin.ext ?_)
    match a with
    | ⟨0, _⟩ =>
      show win0_1.index t (0 : Fin 2) * 1024 + 1 * p.val = p.val
      omega
    | ⟨1, _⟩ =>
      show win0_1.index t (1 : Fin 2) * 1024 + 1 * q.val = win0_2.index t (1 : Fin 2) * 1024 + 1 * q.val
      omega

end Region0

/-- An index of the result array is in point `t`'s block iff each coordinate is in the block's range on its axis. -/
theorem mem_blk0 (t : Fin cfg0.N) (i : S512x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v2).slice (win0_2.rect t)).set ↔ _
  rw [View.set_slice_whole, Rect.mem_set_unit]
  exact Iff.rfl

/-- Every index of the result array is in some point's block, and every point writes its block back: row `n` belongs to
    point `n / 256`. -/
theorem cover0 (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := idx_onto0 ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- THE RESULT ARRAY after the first pallas_call: the product of the two argument arrays as the region finds them. -/
theorem final0 (V : (c : Dev nD) → (b : Ref sig .tc) → Buf (Elt Ideal) ((c : Thread nD τ).loc b)) (c : Dev nD) :
    (dat0 (F := Ideal) V c).arrAt 2 cfg0.N = matProd (V c main_arg0) (V c main_v1) :=
  (dat0 (F := Ideal) V c).arrAt_eq_of_cover 2 (matProd (V c main_arg0) (V c main_v1)) (fun t _ => flushed0_eq V c t) cover0

end Cert.KernelIdeal.Hand

end
-- ==== Proof.KI.Val1Defs.lean ====
/- The second pallas_call's result as one function of its two operands: for row n = 128·i + p and feature o, the four key
   blocks' shares — each the sum over the block's 128 keys q of exp(−Σ_k |mi(k, n, o) − mj(k, o, 128·kv + q)|), the row's
   own key masked out — added onto zero in the order the grid visits them. -/
import proofs.«111438_j33414845562989_2_alg».proof.KernelIdeal
import proofs.«111438_j33414845562989_2_alg».proof.Proof.Spec
import Idealize.ShloMosaic.Lib.ValueIdx

open scoped BigOperators

noncomputable section

namespace Cert.KernelIdeal.Hand

open Cert.KernelIdeal Idealize.ShloMosaic Idealize.ShloMosaic.ValueIdx Cert.Spec

/-! ## The result of the second pallas_call as one function of its two operands -/

/-- One key block's share of row (i, p), feature o: the 128 keys of block kv. `mi` is the query-side operand [16, 512, 64],
    `mj` the key-side operand [16, 64, 512]. -/
def blockSum (mi : S16x512x64.Idx → EReal) (mj : S16x64x512.Idx → EReal) (i : Fin 4) (p : Fin 128) (o : Fin 64) (kv : Fin 4) : EReal :=
  ∑ q : Fin 128, Ideal.exp (-(∑ k : Fin 16, aabs (mi (ix3 k ⟨i.val * 128 + p.val, by have := i.isLt; have := p.isLt; omega⟩ o)
      - mj (ix3 k o ⟨kv.val * 128 + q.val, by have := kv.isLt; have := q.isLt; omega⟩))))
    * (if i.val * 128 + p.val = kv.val * 128 + q.val then 0 else 1)

/-- The four key blocks added in the order the grid visits them, onto zero. -/
def rowSim (mi : S16x512x64.Idx → EReal) (mj : S16x64x512.Idx → EReal) (i : Fin 4) (p : Fin 128) (o : Fin 64) : EReal :=
  (((0 + blockSum mi mj i p o 0) + blockSum mi mj i p o 1) + blockSum mi mj i p o 2) + blockSum mi mj i p o 3

/-- The whole result [512, 64]: row n = 128·i + p. -/
def simArr (mi : S16x512x64.Idx → EReal) (mj : S16x64x512.Idx → EReal) : S512x64.Idx → EReal := fun j =>
  rowSim mi mj ⟨(j 0).val / 128, by have := idx2_lt0 j; omega⟩ ⟨(j 0).val % 128, Nat.mod_lt _ (by norm_num)⟩ ⟨(j 1).val, idx2_lt1 j⟩

end Cert.KernelIdeal.Hand

end
-- ==== Proof.SpecLaws.lean ====
/-
  Three laws of the extended reals used when the two programs are read against the specification:
  the absolute value of a difference does not depend on the order of subtraction, a sum over 512 indices
  is a sum over 4 blocks of 128, and a left-nested sum of sixteen terms starting from zero is the sum of the terms.
  None of them needs a finiteness hypothesis.
-/
import proofs.«111438_j33414845562989_2_alg».proof.Proof.Spec
import Mathlib.Data.EReal.Basic
import Mathlib.Algebra.BigOperators.Fin
import Mathlib.Logic.Equiv.Fin.Basic

open scoped BigOperators

noncomputable section

namespace Cert.Spec

/-- |a - b| = |b - a| for all extended reals, the infinite ones included: when both are the same infinity
    each difference is the bottom element and its absolute value the top element. -/
theorem aabs_sub_comm (a b : EReal) : aabs (a - b) = aabs (b - a) := by
  unfold aabs
  induction a using EReal.rec with
  | bot =>
    induction b using EReal.rec with
    | bot => rfl
    | coe y => simp
    | top => simp
  | coe x =>
    induction b using EReal.rec with
    | bot => simp
    | coe y =>
      rw [← EReal.coe_sub, ← EReal.coe_sub, ← EReal.coe_neg, ← EReal.coe_neg, neg_sub, neg_sub, max_comm]
    | top => simp
  | top =>
    induction b using EReal.rec with
    | bot => simp
    | coe y => simp
    | top => rfl

/-- A sum over 512 indices, read as 4 blocks of 128 consecutive indices. -/
theorem sum_blocks (f : Fin 512 → EReal) :
    ∑ j : Fin 512, f j
      = ∑ a : Fin 4, ∑ b : Fin 128, f ⟨a.val * 128 + b.val, by have := a.isLt; have := b.isLt; omega⟩ := by
  rw [← (finProdFinEquiv : Fin 4 × Fin 128 ≃ Fin 512).sum_comp f, Fintype.sum_prod_type]
  refine Finset.sum_congr rfl fun a _ => Finset.sum_congr rfl fun b _ => ?_
  congr 1
  apply Fin.ext
  simp only [finProdFinEquiv_apply_val]
  omega

/-- Sixteen terms added one after another onto zero, from the left, give their sum. -/
theorem fold16 (t : Fin 16 → EReal) :
    ((((((((((((((((0 + t 0) + t 1) + t 2) + t 3) + t 4) + t 5) + t 6) + t 7) + t 8) + t 9) + t 10)
      + t 11) + t 12) + t 13) + t 14) + t 15) = ∑ k : Fin 16, t k := by
  rw [zero_add]
  simp only [Fin.sum_univ_castSucc, Fin.sum_univ_zero, zero_add]
  rfl

end Cert.Spec

end
-- ==== Proof.KPayStep.lean ====
/-
  The distance accumulation read at an index. Each of the sixteen unrolled steps adds, at (p, o, q), the absolute
  difference |a(0,p,o) - b(0,o,q)| of one slice pair to the running value: the left operand is a [128,64] slice
  spread along a new last axis, the right operand a [64,128] slice spread along a new first axis. The payloads
  group these steps two, three, three, four and three at a time; each reads as the running value plus its terms,
  added from the left in program order.
-/
import proofs.«111438_j33414845562989_2_alg».proof.Proof.Gen.KernelIdeal.Skeleton
import proofs.«111438_j33414845562989_2_alg».proof.Proof.Spec
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-! ## Layout operations at an index -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The two operands of one step at an index -/

/-- A [128,64] slice given a new last axis and spread along it: (p, o, q) reads (p, o). -/
theorem lhs2_apply (a' : FVec Ideal S128x64 .f32) (p : Fin 128) (o : Fin 64) (q : Fin 128) :
    broadcastTo S128x64x128 (shapeCast S128x64x1 a' shapeCasts_S128x64_S128x64x1) broadcasts_S128x64x1_S128x64x128 (ix3 p o q)
      = a' (ix2 p o) :=
  (broadcastTo_ab1_abc_apply _ _ p o q).trans (shapeCast_ab_ab1_apply a' _ p o 0)

/-- The same from the loaded [1,128,64] slice: (p, o, q) reads (0, p, o). -/
theorem lhs_apply (a : Vec Ideal S1x128x64 .f32) (p : Fin 128) (o : Fin 64) (q : Fin 128) :
    broadcastTo S128x64x128 (shapeCast S128x64x1 (shapeCast S128x64 a shapeCasts_S1x128x64_S128x64) shapeCasts_S128x64_S128x64x1)
        broadcasts_S128x64x1_S128x64x128 (ix3 p o q)
      = a (ix3 0 p o) :=
  (lhs2_apply _ p o q).trans (shapeCast_1ab_ab_apply a _ p o)

/-- A [64,128] slice given a new first axis and spread along it: (p, o, q) reads (o, q). -/
theorem rhs2_apply (b' : FVec Ideal S64x128 .f32) (p : Fin 128) (o : Fin 64) (q : Fin 128) :
    broadcastTo S128x64x128 (shapeCast S1x64x128 b' shapeCasts_S64x128_S1x64x128) broadcasts_S1x64x128_S128x64x128 (ix3 p o q)
      = b' (ix2 o q) :=
  (broadcastTo_1bc_abc_apply _ _ p o q).trans (shapeCast_ab_1ab_apply b' _ 0 o q)

/-- The same from the loaded [1,64,128] slice: (p, o, q) reads (0, o, q). -/
theorem rhs_apply (b : Vec Ideal S1x64x128 .f32) (p : Fin 128) (o : Fin 64) (q : Fin 128) :
    broadcastTo S128x64x128 (shapeCast S1x64x128 (shapeCast S64x128 b shapeCasts_S1x64x128_S64x128) shapeCasts_S64x128_S1x64x128)
        broadcasts_S1x64x128_S128x64x128 (ix3 p o q)
      = b (ix3 0 o q) :=
  (rhs2_apply _ p o q).trans (shapeCast_1ab_ab_apply b _ o q)

/-! ## One step -/

/-- Adding the absolute difference of two arrays to a running value, at an index, once the two arrays are known there. -/
theorem step_of (acc X Y : FVec Ideal S128x64x128 .f32) (j : S128x64x128.Idx) (x y : EReal)
    (hx : X j = x) (hy : Y j = y) :
    addf acc (absf (subf X Y)) j = acc j + Cert.Spec.aabs (x - y) := by
  rw [← hx, ← hy]; rfl

/-- One term of the distance: slices `a`, `b` at (p, o, q). -/
abbrev dterm (a : Vec Ideal S1x128x64 .f32) (b : Vec Ideal S1x64x128 .f32) (p : Fin 128) (o : Fin 64) (q : Fin 128) : EReal :=
  Cert.Spec.aabs (a (ix3 0 p o) - b (ix3 0 o q))

/-- ONE STEP of the distance: the running value plus |a(0,p,o) - b(0,o,q)|. -/
theorem step_apply (a : Vec Ideal S1x128x64 .f32) (b : Vec Ideal S1x64x128 .f32) (acc : FVec Ideal S128x64x128 .f32)
    (p : Fin 128) (o : Fin 64) (q : Fin 128) :
    addf acc (absf (subf
        (broadcastTo S128x64x128 (shapeCast S128x64x1 (shapeCast S128x64 a shapeCasts_S1x128x64_S128x64) shapeCasts_S128x64_S128x64x1) broadcasts_S128x64x1_S128x64x128)
        (broadcastTo S128x64x128 (shapeCast S1x64x128 (shapeCast S64x128 b shapeCasts_S1x64x128_S64x128) shapeCasts_S64x128_S1x64x128) broadcasts_S1x64x128_S128x64x128)))
      (ix3 p o q)
      = acc (ix3 p o q) + Cert.Spec.aabs (a (ix3 0 p o) - b (ix3 0 o q)) :=
  step_of acc _ _ _ _ _ (lhs_apply a p o q) (rhs_apply b p o q)

/-! ## The payloads at an index -/

/-- Steps 0 and 1, from the zero word. -/
theorem pay4_apply (a0 : Vec Ideal S1x128x64 .f32) (b0 : Vec Ideal S1x64x128 .f32) (a1 : Vec Ideal S1x128x64 .f32) (b1 : Vec Ideal S1x64x128 .f32)
    (p : Fin 128) (o : Fin 64) (q : Fin 128) :
    k1_pay4 a0 b0 a1 b1 (ix3 p o q) = (0 + dterm a0 b0 p o q) + dterm a1 b1 p o q := by
  unfold k1_pay4
  refine (step_apply a1 b1 _ p o q).trans (congrArg (· + dterm a1 b1 p o q) ?_)
  refine (step_apply a0 b0 _ p o q).trans (congrArg (· + dterm a0 b0 p o q) ?_)
  exact Ideal.ofBits_zero_f32

/-- Steps 2, 3, 4. -/
theorem pay5_apply (acc : FVec Ideal S128x64x128 .f32) (a2 : Vec Ideal S1x128x64 .f32) (b2 : Vec Ideal S1x64x128 .f32)
    (a3 : Vec Ideal S1x128x64 .f32) (b3 : Vec Ideal S1x64x128 .f32) (a4 : Vec Ideal S1x128x64 .f32) (b4 : Vec Ideal S1x64x128 .f32)
    (p : Fin 128) (o : Fin 64) (q : Fin 128) :
    k1_pay5 acc a2 b2 a3 b3 a4 b4 (ix3 p o q)
      = ((acc (ix3 p o q) + dterm a2 b2 p o q) + dterm a3 b3 p o q) + dterm a4 b4 p o q := by
  unfold k1_pay5
  refine (step_apply a4 b4 _ p o q).trans (congrArg (· + dterm a4 b4 p o q) ?_)
  refine (step_apply a3 b3 _ p o q).trans (congrArg (· + dterm a3 b3 p o q) ?_)
  exact step_apply a2 b2 acc p o q

/-- The left slice of step 5, cast to [128,64]. -/
theorem pay6_apply (a5 : Vec Ideal S1x128x64 .f32) (p : Fin 128) (o : Fin 64) :
    k1_pay6 a5 (ix2 p o) = a5 (ix3 0 p o) := by
  unfold k1_pay6
  exact shapeCast_1ab_ab_apply a5 _ p o

/-- Steps 5, 6, 7; step 5's left slice arrives already cast. -/
theorem pay7_apply (acc : FVec Ideal S128x64x128 .f32) (a5' : FVec Ideal S128x64 .f32) (b5 : Vec Ideal S1x64x128 .f32)
    (a6 : Vec Ideal S1x128x64 .f32) (b6 : Vec Ideal S1x64x128 .f32) (a7 : Vec Ideal S1x128x64 .f32) (b7 : Vec Ideal S1x64x128 .f32)
    (p : Fin 128) (o : Fin 64) (q : Fin 128) :
    k1_pay7 acc a5' b5 a6 b6 a7 b7 (ix3 p o q)
      = ((acc (ix3 p o q) + Cert.Spec.aabs (a5' (ix2 p o) - b5 (ix3 0 o q))) + dterm a6 b6 p o q) + dterm a7 b7 p o q := by
  unfold k1_pay7
  refine (step_apply a7 b7 _ p o q).trans (congrArg (· + dterm a7 b7 p o q) ?_)
  refine (step_apply a6 b6 _ p o q).trans (congrArg (· + dterm a6 b6 p o q) ?_)
  exact step_of acc _ _ _ _ _ (lhs2_apply a5' p o q) (rhs_apply b5 p o q)

/-- The right slice of step 8, cast to [64,128]. -/
theorem pay8_apply (b8 : Vec Ideal S1x64x128 .f32) (o : Fin 64) (q : Fin 128) :
    k1_pay8 b8 (ix2 o q) = b8 (ix3 0 o q) := by
  unfold k1_pay8
  exact shapeCast_1ab_ab_apply b8 _ o q

/-- The left slice of step 8, cast to [128,64,1]. -/
theorem pay9_apply (a8 : Vec Ideal S1x128x64 .f32) (p : Fin 128) (o : Fin 64) :
    k1_pay9 a8 (ix3 p o (0 : Fin 1)) = a8 (ix3 0 p o) := by
  unfold k1_pay9
  exact (shapeCast_ab_ab1_apply _ _ p o 0).trans (shapeCast_1ab_ab_apply a8 _ p o)

/-- Steps 8, 9, 10, 11; step 8's two slices arrive already cast. -/
theorem pay10_apply (acc : FVec Ideal S128x64x128 .f32) (b8' : FVec Ideal S64x128 .f32) (a8'' : FVec Ideal S128x64x1 .f32)
    (a9 : Vec Ideal S1x128x64 .f32) (b9 : Vec Ideal S1x64x128 .f32) (a10 : Vec Ideal S1x128x64 .f32) (b10 : Vec Ideal S1x64x128 .f32)
    (a11 : Vec Ideal S1x128x64 .f32) (b11 : Vec Ideal S1x64x128 .f32)
    (p : Fin 128) (o : Fin 64) (q : Fin 128) :
    k1_pay10 acc b8' a8'' a9 b9 a10 b10 a11 b11 (ix3 p o q)
      = (((acc (ix3 p o q) + Cert.Spec.aabs (a8'' (ix3 p o (0 : Fin 1)) - b8' (ix2 o q))) + dterm a9 b9 p o q)
          + dterm a10 b10 p o q) + dterm a11 b11 p o q := by
  unfold k1_pay10
  refine (step_apply a11 b11 _ p o q).trans (congrArg (· + dterm a11 b11 p o q) ?_)
  refine (step_apply a10 b10 _ p o q).trans (congrArg (· + dterm a10 b10 p o q) ?_)
  refine (step_apply a9 b9 _ p o q).trans (congrArg (· + dterm a9 b9 p o q) ?_)
  exact step_of acc _ _ _ _ _ (broadcastTo_ab1_abc_apply a8'' _ p o q) (rhs2_apply b8' p o q)

/-- Steps 12, 13, 14. -/
theorem pay11_apply (acc : FVec Ideal S128x64x128 .f32) (a12 : Vec Ideal S1x128x64 .f32) (b12 : Vec Ideal S1x64x128 .f32)
    (a13 : Vec Ideal S1x128x64 .f32) (b13 : Vec Ideal S1x64x128 .f32) (a14 : Vec Ideal S1x128x64 .f32) (b14 : Vec Ideal S1x64x128 .f32)
    (p : Fin 128) (o : Fin 64) (q : Fin 128) :
    k1_pay11 acc a12 b12 a13 b13 a14 b14 (ix3 p o q)
      = ((acc (ix3 p o q) + dterm a12 b12 p o q) + dterm a13 b13 p o q) + dterm a14 b14 p o q := by
  unfold k1_pay11
  refine (step_apply a14 b14 _ p o q).trans (congrArg (· + dterm a14 b14 p o q) ?_)
  refine (step_apply a13 b13 _ p o q).trans (congrArg (· + dterm a13 b13 p o q) ?_)
  exact step_apply a12 b12 acc p o q

/-- The left slice of step 15, cast to [128,64]. -/
theorem pay12_apply (a15 : Vec Ideal S1x128x64 .f32) (p : Fin 128) (o : Fin 64) :
    k1_pay12 a15 (ix2 p o) = a15 (ix3 0 p o) := by
  unfold k1_pay12
  exact shapeCast_1ab_ab_apply a15 _ p o

end Cert.KernelIdeal.Pay

end
-- ==== Proof.KPayChain.lean ====
/-
  The pairwise payloads composed. At block (i, kv) and entry (p, o) the stored value is the running value plus
  the sum over the 128 columns q of exp(0 - norm(p,o,q)) times the mask at (p, q), where norm is the sixteen
  absolute differences added from the left starting at zero. The sixteen left-nested terms are the sum over the
  slice index, and exp(0 - n) is exp(-n).
-/
import proofs.«111438_j33414845562989_2_alg».proof.Proof.Gen.KernelIdeal.Skeleton
import proofs.«111438_j33414845562989_2_alg».proof.Proof.Spec
import proofs.«111438_j33414845562989_2_alg».proof.Proof.SpecLaws
import proofs.«111438_j33414845562989_2_alg».proof.Proof.KPayStep
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-- The source index over result index (p, o) with coordinate k on the reduced last axis is (p, o, k). -/
theorem lift_last (p : Fin 128) (o : Fin 64) (k : Fin 128) :
    reduces_S128x64x128_S128x64.lift (ix2 p o) k = ix3 p o k := by
  funext c
  refine Fin.ext ?_
  match c with
  | ⟨0, _⟩ => rfl
  | ⟨1, _⟩ => rfl
  | ⟨2, _⟩ => rfl

/-- The zero word of the scratch accumulator. -/
theorem pay2_apply (j : S128x64.Idx) : k1_pay2 (F := Ideal) j = 0 := by
  unfold k1_pay2
  refine (congrFun (shapeCast_self _ _) j).trans ?_
  exact Ideal.ofBits_zero_f32

/-- The last payload at (p, o): the sixteenth step, exp of minus the norm, the mask, the sum over the columns and the
    running value. -/
theorem pay1_apply (m : FVec Ideal S128x1x128 .f32) (nrm : FVec Ideal S128x64x128 .f32) (a15' : FVec Ideal S128x64 .f32)
    (b15 : Vec Ideal S1x64x128 .f32) (acc : Vec Ideal S128x64 .f32) (p : Fin 128) (o : Fin 64) :
    k1_pay1 m nrm a15' b15 acc (ix2 p o)
      = acc (ix2 p o) + ∑ q : Fin 128,
          Ideal.exp (0 - (nrm (ix3 p o q) + Cert.Spec.aabs (a15' (ix2 p o) - b15 (ix3 0 o q)))) * m (ix3 p (0 : Fin 1) q) := by
  unfold k1_pay1
  refine (congrFun (shapeCast_self _ _) (ix2 p o)).trans ?_
  refine (addf_apply _ _ _).trans (congrArg (acc (ix2 p o) + ·) ?_)
  refine (Ideal.multiReduction_add_single _ _ reduces_S128x64x128_S128x64 _ _ (ix2 p o)).trans ?_
  refine Finset.sum_congr rfl fun (q : Fin 128) _ => ?_
  refine (congrArg _ (lift_last p o q)).trans ?_
  refine (mulf_apply _ _ _).trans ?_
  refine congrArg₂ (· * ·) ?_ (broadcastTo_a1c_abc_apply m _ p o q)
  refine congrArg Ideal.exp ?_
  refine congrArg₂ (· - ·) Ideal.ofBits_zero_f32 ?_
  exact step_of nrm _ _ _ _ _ (lhs2_apply a15' p o q) (rhs_apply b15 p o q)

/-- The twelve payloads composed as the kernel body composes them: `A k`, `B k` the sixteen slice pairs in load order. -/
def chain (i : grid1.Coords) (A : Fin 16 → Vec Ideal S1x128x64 .f32) (B : Fin 16 → Vec Ideal S1x64x128 .f32)
    (acc : Vec Ideal S128x64 .f32) : FVec Ideal S128x64 .f32 :=
  k1_pay1 (k1_pay3 i)
    (k1_pay11
      (k1_pay10
        (k1_pay7
          (k1_pay5 (k1_pay4 (A 0) (B 0) (A 1) (B 1)) (A 2) (B 2) (A 3) (B 3) (A 4) (B 4))
          (k1_pay6 (A 5)) (B 5) (A 6) (B 6) (A 7) (B 7))
        (k1_pay8 (B 8)) (k1_pay9 (A 8)) (A 9) (B 9) (A 10) (B 10) (A 11) (B 11))
      (A 12) (B 12) (A 13) (B 13) (A 14) (B 14))
    (k1_pay12 (A 15)) (B 15) acc

/-- The composed payloads at (p, o), the mask still as the payload that builds it. -/
theorem chain_apply_mask (i : grid1.Coords) (A : Fin 16 → Vec Ideal S1x128x64 .f32) (B : Fin 16 → Vec Ideal S1x64x128 .f32)
    (acc : Vec Ideal S128x64 .f32) (p : Fin 128) (o : Fin 64) :
    chain i A B acc (ix2 p o)
      = acc (ix2 p o) + ∑ q : Fin 128,
          Ideal.exp (-(∑ k : Fin 16, Cert.Spec.aabs (A k (ix3 0 p o) - B k (ix3 0 o q))))
            * k1_pay3 (F := Ideal) i (ix3 p (0 : Fin 1) q) := by
  unfold chain
  refine (pay1_apply _ _ _ _ acc p o).trans (congrArg (acc (ix2 p o) + ·) ?_)
  refine Finset.sum_congr rfl fun q _ => ?_
  refine congrArg (· * k1_pay3 (F := Ideal) i (ix3 p (0 : Fin 1) q)) (congrArg Ideal.exp ?_)
  rw [zero_sub]
  refine congrArg Neg.neg ?_
  rw [pay12_apply, pay11_apply, pay10_apply, pay9_apply, pay8_apply, pay7_apply, pay6_apply, pay5_apply, pay4_apply]
  exact Cert.Spec.fold16 (fun k => Cert.Spec.aabs (A k (ix3 0 p o) - B k (ix3 0 o q)))

end Cert.KernelIdeal.Pay

end
-- ==== Proof.KPayMask.lean ====
/-
  The mask at an index. At block (i, kv) the kernel compares the row number i*128 + p with the column number
  kv*128 + q as 32-bit words, widens the one-bit answer and converts it: 1 where the two differ, 0 on the diagonal.
  Both numbers are below 512, so the 32-bit products and sums do not wrap.
-/
import proofs.«111438_j33414845562989_2_alg».proof.Proof.Gen.KernelIdeal.Skeleton
import proofs.«111438_j33414845562989_2_alg».proof.Proof.Spec
import proofs.«111438_j33414845562989_2_alg».proof.Proof.KPayStep
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-- Two numbers below 512 compared as 32-bit words, the bit widened to 32 bits and read signed. -/
theorem mask_word (n m : Nat) (hn : n < 512) (hm : m < 512) :
    ((BitVec.ofBool (BitVec.ofNat 32 n != BitVec.ofNat 32 m)).setWidth 32).toInt = if n = m then 0 else 1 := by
  by_cases h : n = m
  · subst h
    rw [if_pos rfl]
    have e : (BitVec.ofNat 32 n != BitVec.ofNat 32 n) = false := by simp
    rw [e]; decide
  · rw [if_neg h]
    have e : (BitVec.ofNat 32 n != BitVec.ofNat 32 m) = true := by
      rw [bne_iff_ne]
      intro e
      have := congrArg BitVec.toNat e
      simp only [BitVec.toNat_ofNat] at this
      omega
    rw [e]; decide

/-- A block number below 4 times 128 plus an offset below 128, as 32-bit words, is the word of the number. -/
theorem word_affine (a p : Nat) (ha : a < 4) (hp : p < 128) :
    BitVec.ofNat 32 a * 128#32 + BitVec.ofNat 32 (0 * 128 + p) = BitVec.ofNat 32 (a * 128 + p) := by
  apply BitVec.eq_of_toNat_eq
  simp only [BitVec.toNat_add, BitVec.toNat_mul, BitVec.toNat_ofNat]
  omega

/-- THE MASK at (p, 0, q) of block (i 0, i 1): zero on the diagonal of the whole 512 x 512 square, one off it. -/
theorem mask_apply (i : grid1.Coords) (p q : Fin 128) :
    k1_pay3 (F := Ideal) i (ix3 p (0 : Fin 1) q)
      = if (i 0).val * 128 + p.val = (i 1).val * 128 + q.val then 0 else 1 := by
  have h0 : (i 0).val < 4 := (i 0).isLt
  have h1 : (i 1).val < 4 := (i 1).isLt
  have hp := p.isLt
  have hq := q.isLt
  unfold k1_pay3
  refine (shapeCast_ac_a1c_apply _ _ p 0 q).trans ?_
  show ((((BitVec.ofBool (BitVec.ofNat 32 (i 0).val * 128#32 + BitVec.ofNat 32 (0 * 128 + p.val)
      != BitVec.ofNat 32 (i 1).val * 128#32 + BitVec.ofNat 32 (0 * 128 + q.val))).setWidth 32).toInt : ℝ) : EReal) = _
  rw [word_affine _ _ h0 hp, word_affine _ _ h1 hq, mask_word _ _ (by omega) (by omega)]
  by_cases h : (i 0).val * 128 + p.val = (i 1).val * 128 + q.val
  · rw [if_pos h, if_pos h]; simp
  · rw [if_neg h, if_neg h]; simp

end Cert.KernelIdeal.Pay

end
-- ==== Proof.KPayFinal.lean ====
/-
  The composed pairwise payloads with the mask in closed form: at block (i, kv) and entry (p, o), the running value
  plus the sum over the columns q of exp(-(sum of the sixteen absolute differences)) off the diagonal of the whole
  square, zero on it.
-/
import proofs.«111438_j33414845562989_2_alg».proof.Proof.Gen.KernelIdeal.Skeleton
import proofs.«111438_j33414845562989_2_alg».proof.Proof.Spec
import proofs.«111438_j33414845562989_2_alg».proof.Proof.KPayChain
import proofs.«111438_j33414845562989_2_alg».proof.Proof.KPayMask
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-- THE CHAIN at (p, o). -/
theorem chain_apply (i : grid1.Coords) (A : Fin 16 → Vec Ideal S1x128x64 .f32) (B : Fin 16 → Vec Ideal S1x64x128 .f32)
    (acc : Vec Ideal S128x64 .f32) (p : Fin 128) (o : Fin 64) :
    chain i A B acc (ix2 p o)
      = acc (ix2 p o) + ∑ q : Fin 128,
          Ideal.exp (-(∑ k : Fin 16, Cert.Spec.aabs (A k (ix3 0 p o) - B k (ix3 0 o q))))
            * (if (i 0).val * 128 + p.val = (i 1).val * 128 + q.val then 0 else 1) := by
  refine (chain_apply_mask i A B acc p o).trans (congrArg (acc (ix2 p o) + ·) ?_)
  refine Finset.sum_congr rfl fun q _ => ?_
  rw [mask_apply i p q]

end Cert.KernelIdeal.Pay

end
-- ==== Proof.KPayLoad.lean ====
/-
  Loads of one slice of a block. A load through the unit-stride rectangle of extent [1,128,64] at offset (k,0,0)
  of a [16,128,64] block reads, at (0, p, o), the block at (k, p, o); likewise for a [16,64,128] block.
-/
import proofs.«111438_j33414845562989_2_alg».proof.Proof.Gen.KernelIdeal.Skeleton
import proofs.«111438_j33414845562989_2_alg».proof.Proof.Spec
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Pay

open Idealize.ShloMosaic Idealize.ShloMosaic.ValueIdx Cert.KernelIdeal Cert.KernelIdeal.Gen

/-- Slice k of the left block. -/
theorem ldA_apply (x0 : Vec Ideal S16x128x64 .f32) (k : Nat) (hk : k < 16)
    (h : ∀ a, (![k, 0, 0] : Fin 3 → Nat) a + S1x128x64.size a ≤ S16x128x64.size a) (p : Fin 128) (o : Fin 64) :
    View.ld x0 (Rect.unit (s := S16x128x64) ![k, 0, 0] S1x128x64.size h) (ix3 (0 : Fin 1) p o)
      = x0 (ix3 (⟨k, hk⟩ : Fin 16) p o) := by
  show x0 _ = x0 _
  refine congrArg x0 (funext fun a => Fin.ext ?_)
  match a with
  | ⟨0, _⟩ => show k + 1 * 0 = k; omega
  | ⟨1, _⟩ => show 0 + 1 * p.val = p.val; omega
  | ⟨2, _⟩ => show 0 + 1 * o.val = o.val; omega

/-- Slice k of the right block. -/
theorem ldB_apply (x1 : Vec Ideal S16x64x128 .f32) (k : Nat) (hk : k < 16)
    (h : ∀ a, (![k, 0, 0] : Fin 3 → Nat) a + S1x64x128.size a ≤ S16x64x128.size a) (o : Fin 64) (q : Fin 128) :
    View.ld x1 (Rect.unit (s := S16x64x128) ![k, 0, 0] S1x64x128.size h) (ix3 (0 : Fin 1) o q)
      = x1 (ix3 (⟨k, hk⟩ : Fin 16) o q) := by
  show x1 _ = x1 _
  refine congrArg x1 (funext fun a => Fin.ext ?_)
  match a with
  | ⟨0, _⟩ => show k + 1 * 0 = k; omega
  | ⟨1, _⟩ => show 0 + 1 * o.val = o.val; omega
  | ⟨2, _⟩ => show 0 + 1 * q.val = q.val; omega

end Cert.KernelIdeal.Pay

end
-- ==== Proof.KI.Pieces.lean ====
/- What the runs of the second pallas_call found, read as mathematics: in every case the scratch accumulator ends at
   acc + contribution, where the contribution is the composition of the body's arithmetic over the sixteen slices of
   the query block and the sixteen slices of the key block, and acc is zero (kv = 0) or what the scratch held before;
   when kv = 3 the result's staging buffer receives a copy of the scratch. -/
import proofs.«111438_j33414845562989_2_alg».proof.Proof.KI.R1
import proofs.«111438_j33414845562989_2_alg».proof.Proof.KPayFinal
import proofs.«111438_j33414845562989_2_alg».proof.Proof.KPayLoad

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay

theorem hz2 : (![0, 0] : Fin 2 → Nat) = fun _ => 0 := funext fun a => by fin_cases a <;> rfl

/-- The sixteen [128, 64] slices of a query block [16, 128, 64], one per kernel dimension, as the body loads them. -/
def slA (x0 : Vec Ideal S16x128x64 .f32) : Fin 16 → Vec Ideal S1x128x64 .f32
  | ⟨0, _⟩ => View.ld x0 (Rect.unit (s := S16x128x64) ![0, 0, 0] S1x128x64.size inb_S16x128x64_S1x128x64_0_0_0)
  | ⟨1, _⟩ => View.ld x0 (Rect.unit (s := S16x128x64) ![1, 0, 0] S1x128x64.size inb_S16x128x64_S1x128x64_1_0_0)
  | ⟨2, _⟩ => View.ld x0 (Rect.unit (s := S16x128x64) ![2, 0, 0] S1x128x64.size inb_S16x128x64_S1x128x64_2_0_0)
  | ⟨3, _⟩ => View.ld x0 (Rect.unit (s := S16x128x64) ![3, 0, 0] S1x128x64.size inb_S16x128x64_S1x128x64_3_0_0)
  | ⟨4, _⟩ => View.ld x0 (Rect.unit (s := S16x128x64) ![4, 0, 0] S1x128x64.size inb_S16x128x64_S1x128x64_4_0_0)
  | ⟨5, _⟩ => View.ld x0 (Rect.unit (s := S16x128x64) ![5, 0, 0] S1x128x64.size inb_S16x128x64_S1x128x64_5_0_0)
  | ⟨6, _⟩ => View.ld x0 (Rect.unit (s := S16x128x64) ![6, 0, 0] S1x128x64.size inb_S16x128x64_S1x128x64_6_0_0)
  | ⟨7, _⟩ => View.ld x0 (Rect.unit (s := S16x128x64) ![7, 0, 0] S1x128x64.size inb_S16x128x64_S1x128x64_7_0_0)
  | ⟨8, _⟩ => View.ld x0 (Rect.unit (s := S16x128x64) ![8, 0, 0] S1x128x64.size inb_S16x128x64_S1x128x64_8_0_0)
  | ⟨9, _⟩ => View.ld x0 (Rect.unit (s := S16x128x64) ![9, 0, 0] S1x128x64.size inb_S16x128x64_S1x128x64_9_0_0)
  | ⟨10, _⟩ => View.ld x0 (Rect.unit (s := S16x128x64) ![10, 0, 0] S1x128x64.size inb_S16x128x64_S1x128x64_10_0_0)
  | ⟨11, _⟩ => View.ld x0 (Rect.unit (s := S16x128x64) ![11, 0, 0] S1x128x64.size inb_S16x128x64_S1x128x64_11_0_0)
  | ⟨12, _⟩ => View.ld x0 (Rect.unit (s := S16x128x64) ![12, 0, 0] S1x128x64.size inb_S16x128x64_S1x128x64_12_0_0)
  | ⟨13, _⟩ => View.ld x0 (Rect.unit (s := S16x128x64) ![13, 0, 0] S1x128x64.size inb_S16x128x64_S1x128x64_13_0_0)
  | ⟨14, _⟩ => View.ld x0 (Rect.unit (s := S16x128x64) ![14, 0, 0] S1x128x64.size inb_S16x128x64_S1x128x64_14_0_0)
  | ⟨15, _⟩ => View.ld x0 (Rect.unit (s := S16x128x64) ![15, 0, 0] S1x128x64.size inb_S16x128x64_S1x128x64_15_0_0)
  | ⟨_ + 16, h⟩ => absurd h (Nat.not_lt.2 (Nat.le_add_left _ _))

/-- The sixteen [64, 128] slices of a key block [16, 64, 128]. -/
def slB (x1 : Vec Ideal S16x64x128 .f32) : Fin 16 → Vec Ideal S1x64x128 .f32
  | ⟨0, _⟩ => View.ld x1 (Rect.unit (s := S16x64x128) ![0, 0, 0] S1x64x128.size inb_S16x64x128_S1x64x128_0_0_0)
  | ⟨1, _⟩ => View.ld x1 (Rect.unit (s := S16x64x128) ![1, 0, 0] S1x64x128.size inb_S16x64x128_S1x64x128_1_0_0)
  | ⟨2, _⟩ => View.ld x1 (Rect.unit (s := S16x64x128) ![2, 0, 0] S1x64x128.size inb_S16x64x128_S1x64x128_2_0_0)
  | ⟨3, _⟩ => View.ld x1 (Rect.unit (s := S16x64x128) ![3, 0, 0] S1x64x128.size inb_S16x64x128_S1x64x128_3_0_0)
  | ⟨4, _⟩ => View.ld x1 (Rect.unit (s := S16x64x128) ![4, 0, 0] S1x64x128.size inb_S16x64x128_S1x64x128_4_0_0)
  | ⟨5, _⟩ => View.ld x1 (Rect.unit (s := S16x64x128) ![5, 0, 0] S1x64x128.size inb_S16x64x128_S1x64x128_5_0_0)
  | ⟨6, _⟩ => View.ld x1 (Rect.unit (s := S16x64x128) ![6, 0, 0] S1x64x128.size inb_S16x64x128_S1x64x128_6_0_0)
  | ⟨7, _⟩ => View.ld x1 (Rect.unit (s := S16x64x128) ![7, 0, 0] S1x64x128.size inb_S16x64x128_S1x64x128_7_0_0)
  | ⟨8, _⟩ => View.ld x1 (Rect.unit (s := S16x64x128) ![8, 0, 0] S1x64x128.size inb_S16x64x128_S1x64x128_8_0_0)
  | ⟨9, _⟩ => View.ld x1 (Rect.unit (s := S16x64x128) ![9, 0, 0] S1x64x128.size inb_S16x64x128_S1x64x128_9_0_0)
  | ⟨10, _⟩ => View.ld x1 (Rect.unit (s := S16x64x128) ![10, 0, 0] S1x64x128.size inb_S16x64x128_S1x64x128_10_0_0)
  | ⟨11, _⟩ => View.ld x1 (Rect.unit (s := S16x64x128) ![11, 0, 0] S1x64x128.size inb_S16x64x128_S1x64x128_11_0_0)
  | ⟨12, _⟩ => View.ld x1 (Rect.unit (s := S16x64x128) ![12, 0, 0] S1x64x128.size inb_S16x64x128_S1x64x128_12_0_0)
  | ⟨13, _⟩ => View.ld x1 (Rect.unit (s := S16x64x128) ![13, 0, 0] S1x64x128.size inb_S16x64x128_S1x64x128_13_0_0)
  | ⟨14, _⟩ => View.ld x1 (Rect.unit (s := S16x64x128) ![14, 0, 0] S1x64x128.size inb_S16x64x128_S1x64x128_14_0_0)
  | ⟨15, _⟩ => View.ld x1 (Rect.unit (s := S16x64x128) ![15, 0, 0] S1x64x128.size inb_S16x64x128_S1x64x128_15_0_0)
  | ⟨_ + 16, h⟩ => absurd h (Nat.not_lt.2 (Nat.le_add_left _ _))

/-- Slice `k` of the query block at (p, o) is the block at (k, p, o). -/
theorem slA_apply (x0 : Vec Ideal S16x128x64 .f32) (p : Fin 128) (o : Fin 64) : ∀ k : Fin 16, slA x0 k (ValueIdx.ix3 (0 : Fin 1) p o) = x0 (ValueIdx.ix3 k p o)
  | ⟨0, _⟩ => ldA_apply x0 0 (by omega) _ p o
  | ⟨1, _⟩ => ldA_apply x0 1 (by omega) _ p o
  | ⟨2, _⟩ => ldA_apply x0 2 (by omega) _ p o
  | ⟨3, _⟩ => ldA_apply x0 3 (by omega) _ p o
  | ⟨4, _⟩ => ldA_apply x0 4 (by omega) _ p o
  | ⟨5, _⟩ => ldA_apply x0 5 (by omega) _ p o
  | ⟨6, _⟩ => ldA_apply x0 6 (by omega) _ p o
  | ⟨7, _⟩ => ldA_apply x0 7 (by omega) _ p o
  | ⟨8, _⟩ => ldA_apply x0 8 (by omega) _ p o
  | ⟨9, _⟩ => ldA_apply x0 9 (by omega) _ p o
  | ⟨10, _⟩ => ldA_apply x0 10 (by omega) _ p o
  | ⟨11, _⟩ => ldA_apply x0 11 (by omega) _ p o
  | ⟨12, _⟩ => ldA_apply x0 12 (by omega) _ p o
  | ⟨13, _⟩ => ldA_apply x0 13 (by omega) _ p o
  | ⟨14, _⟩ => ldA_apply x0 14 (by omega) _ p o
  | ⟨15, _⟩ => ldA_apply x0 15 (by omega) _ p o
  | ⟨_ + 16, h⟩ => absurd h (Nat.not_lt.2 (Nat.le_add_left _ _))

/-- Slice `k` of the key block at (o, q) is the block at (k, o, q). -/
theorem slB_apply (x1 : Vec Ideal S16x64x128 .f32) (o : Fin 64) (q : Fin 128) : ∀ k : Fin 16, slB x1 k (ValueIdx.ix3 (0 : Fin 1) o q) = x1 (ValueIdx.ix3 k o q)
  | ⟨0, _⟩ => ldB_apply x1 0 (by omega) _ o q
  | ⟨1, _⟩ => ldB_apply x1 1 (by omega) _ o q
  | ⟨2, _⟩ => ldB_apply x1 2 (by omega) _ o q
  | ⟨3, _⟩ => ldB_apply x1 3 (by omega) _ o q
  | ⟨4, _⟩ => ldB_apply x1 4 (by omega) _ o q
  | ⟨5, _⟩ => ldB_apply x1 5 (by omega) _ o q
  | ⟨6, _⟩ => ldB_apply x1 6 (by omega) _ o q
  | ⟨7, _⟩ => ldB_apply x1 7 (by omega) _ o q
  | ⟨8, _⟩ => ldB_apply x1 8 (by omega) _ o q
  | ⟨9, _⟩ => ldB_apply x1 9 (by omega) _ o q
  | ⟨10, _⟩ => ldB_apply x1 10 (by omega) _ o q
  | ⟨11, _⟩ => ldB_apply x1 11 (by omega) _ o q
  | ⟨12, _⟩ => ldB_apply x1 12 (by omega) _ o q
  | ⟨13, _⟩ => ldB_apply x1 13 (by omega) _ o q
  | ⟨14, _⟩ => ldB_apply x1 14 (by omega) _ o q
  | ⟨15, _⟩ => ldB_apply x1 15 (by omega) _ o q
  | ⟨_ + 16, h⟩ => absurd h (Nat.not_lt.2 (Nat.le_add_left _ _))

set_option maxHeartbeats 1000000 in
/-- kv = 0: the scratch ends at the block's contribution added to zero. -/
theorem sout1_A_eq (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec Ideal S16x128x64 .f32) (x1 : Vec Ideal S16x64x128 .f32) :
    sout1_A (F := Ideal) c i arg2 harg2 arg3 harg3 arg4 harg4 arg5 harg5 hc0 hc1 x0 x1 = chain i (slA x0) (slB x1) (k1_pay2 (F := Ideal)) := by
  unfold sout1_A
  rw [View.read_writes_eq_canon _ _ _ (scover1_A c i arg2 harg2 arg3 harg3 arg4 harg4 arg5 harg5 hc0 hc1 x0 x1)]
  unfold kernelRun1_A
  dsimp only
  sl_unfold_run_names
  refine (View.canon_cons_unit_zero hz2 _ _ _).trans ?_
  simp only [View.readAt_eq_ld, harg2.read_unread, harg3.read_unread]
  rw [View.readCov_unit_zero _ hz2]
  rfl

set_option maxHeartbeats 1000000 in
/-- kv = 1, 2: the scratch ends at the block's contribution added to what it held. -/
theorem sout1_B_eq (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : ¬cond1_1 i)
    (x0 : Vec Ideal S16x128x64 .f32) (x1 : Vec Ideal S16x64x128 .f32) (xs0 : Vec Ideal S128x64 .f32) :
    sout1_B (F := Ideal) c i arg2 harg2 arg3 harg3 arg4 harg4 arg5 harg5 hc0 hc1 x0 x1 xs0 = chain i (slA x0) (slB x1) xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_run_names
  refine (View.canon_cons_unit_zero hz2 _ _ _).trans ?_
  simp only [View.readAt_eq_ld, harg2.read_unread, harg3.read_unread, harg5.read_unread, View.ld_unit_zero (S := S128x64) hz2]
  rfl

set_option maxHeartbeats 1000000 in
/-- kv = 3: the scratch likewise, -/
theorem sout1_C_eq (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec Ideal S16x128x64 .f32) (x1 : Vec Ideal S16x64x128 .f32) (xs0 : Vec Ideal S128x64 .f32) :
    sout1_C (F := Ideal) c i arg2 harg2 arg3 harg3 arg4 harg4 arg5 harg5 hc0 hc1 x0 x1 xs0 = chain i (slA x0) (slB x1) xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_run_names
  refine (View.canon_cons_unit_zero hz2 _ _ _).trans ?_
  simp only [View.readAt_eq_ld, harg2.read_unread, harg3.read_unread, harg5.read_unread, View.ld_unit_zero (S := S128x64) hz2]
  rfl

set_option maxHeartbeats 1000000 in
/-- and the result's staging buffer receives a copy of it. -/
theorem out1_C_eq (c : Dev nD) (i : grid1.Coords) (arg2 : Memref sig .tc .vmem S16x128x64 .f32) (harg2 : arg2.IsWhole) (arg3 : Memref sig .tc .vmem S16x64x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec Ideal S16x128x64 .f32) (x1 : Vec Ideal S16x64x128 .f32) (xs0 : Vec Ideal S128x64 .f32) :
    out1_C (F := Ideal) c i arg2 harg2 arg3 harg3 arg4 harg4 arg5 harg5 hc0 hc1 x0 x1 xs0 = chain i (slA x0) (slB x1) xs0 := by
  unfold out1_C
  rw [View.read_writes_eq_canon _ _ _ (cover1_C c i arg2 harg2 arg3 harg3 arg4 harg4 arg5 harg5 hc0 hc1 x0 x1 xs0)]
  unfold kernelRun1_C
  dsimp only
  sl_unfold_run_names
  refine (View.canon_unit_zero hz2 _ _).trans ?_
  rw [View.readCov_unit_zero _ hz2]
  simp only [View.readAt_eq_ld, harg2.read_unread, harg3.read_unread, harg5.read_unread, View.ld_unit_zero (S := S128x64) hz2]
  rfl

end Cert.KernelIdeal.Hand

end
-- ==== Proof.KI.Val1.lean ====
/- The second pallas_call's result array as one function of its two operands. A grid point (i, kv) adds to the scratch
   accumulator, for each of its 128 rows p and 64 features o, the share of key block kv: the sum over the block's 128
   keys q of exp(−Σ_k |mi(k, 128i+p, o) − mj(k, o, 128kv+q)|), the row's own key masked out. -/
import proofs.«111438_j33414845562989_2_alg».proof.Proof.KI.Pieces
import proofs.«111438_j33414845562989_2_alg».proof.Proof.KI.Val1Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pay Idealize.ShloMosaic.ValueIdx Cert.Spec

/-! ## The grid and the printed index maps, decided once -/

theorem coords1 : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)

theorem idx_facts1 : ∀ t : Fin cfg1.N, win1_0.index t (0 : Fin 3) = 0 ∧ win1_0.index t (1 : Fin 3) = t.val / 4 ∧ win1_0.index t (2 : Fin 3) = 0
    ∧ win1_1.index t (0 : Fin 3) = 0 ∧ win1_1.index t (1 : Fin 3) = 0 ∧ win1_1.index t (2 : Fin 3) = t.val % 4
    ∧ win1_2.index t (0 : Fin 2) = t.val / 4 ∧ win1_2.index t (1 : Fin 2) = 0 :=
  (by decide +kernel : ∀ t : Fin grid1.N, _)

section
variable (V : (c : Dev nD) → (b : Ref sig .tc) → Buf (Elt Ideal) ((c : Thread nD τ).loc b))

/-- The query block at a point, read in the query-side operand: rows 128·(t / 4) + p. -/
theorem iblk1_0_apply (c : Dev nD) (t : Fin cfg1.N) (k : Fin 16) (p : Fin 128) (o : Fin 64) :
    iblk1 V c 0 t (ix3 k p o) = (V c main_v4 : S16x512x64.Idx → EReal) (ix3 k ⟨t.val / 4 * 128 + p.val, by have := t.isLt; have : cfg1.N = 16 := N_1; have := p.isLt; omega⟩ o) := by
  obtain ⟨e0, e1, e2, -⟩ := idx_facts1 t
  show V c main_v4 (((cfg1.win 0).blk t).view.emb (ix3 k p o)) = _
  refine congrArg _ ?_
  funext a; apply Fin.ext
  match a with
  | ⟨0, _⟩ => show win1_0.index t (0 : Fin 3) * 16 + 1 * k.val = k.val; omega
  | ⟨1, _⟩ => show win1_0.index t (1 : Fin 3) * 128 + 1 * p.val = t.val / 4 * 128 + p.val; omega
  | ⟨2, _⟩ => show win1_0.index t (2 : Fin 3) * 64 + 1 * o.val = o.val; omega

/-- The key block at a point, read in the key-side operand: columns 128·(t % 4) + q. -/
theorem iblk1_1_apply (c : Dev nD) (t : Fin cfg1.N) (k : Fin 16) (o : Fin 64) (q : Fin 128) :
    iblk1 V c 1 t (ix3 k o q) = (V c main_v5 : S16x64x512.Idx → EReal) (ix3 k o ⟨t.val % 4 * 128 + q.val, by have := q.isLt; omega⟩) := by
  obtain ⟨-, -, -, e0, e1, e2, -⟩ := idx_facts1 t
  show V c main_v5 (((cfg1.win 1).blk t).view.emb (ix3 k o q)) = _
  refine congrArg _ ?_
  funext a; apply Fin.ext
  match a with
  | ⟨0, _⟩ => show win1_1.index t (0 : Fin 3) * 16 + 1 * k.val = k.val; omega
  | ⟨1, _⟩ => show win1_1.index t (1 : Fin 3) * 64 + 1 * o.val = o.val; omega
  | ⟨2, _⟩ => show win1_1.index t (2 : Fin 3) * 128 + 1 * q.val = t.val % 4 * 128 + q.val; omega

/-- ONE POINT: the body's arithmetic on the point's two blocks adds that key block's share to the accumulator. -/
theorem point_apply (c : Dev nD) (t : Fin cfg1.N) (acc : Vec Ideal S128x64 .f32) (p : Fin 128) (o : Fin 64) :
    chain (grid1.coords t) (slA (iblk1 V c 0 t)) (slB (iblk1 V c 1 t)) acc (ix2 p o)
      = acc (ix2 p o) + blockSum (V c main_v4) (V c main_v5) ⟨t.val / 4, by have := t.isLt; have : cfg1.N = 16 := N_1; omega⟩ p o ⟨t.val % 4, Nat.mod_lt _ (by norm_num)⟩ := by
  refine (chain_apply (grid1.coords t) _ _ acc p o).trans ?_
  obtain ⟨g0, g1⟩ := coords1 t
  unfold blockSum
  refine congrArg (acc (ix2 p o) + ·) ?_
  refine Finset.sum_congr rfl fun q _ => ?_
  rw [g0, g1]
  refine congrArg (fun z => Ideal.exp (-z) * _) ?_
  refine Finset.sum_congr rfl fun k _ => ?_
  rw [slA_apply, slB_apply, iblk1_0_apply, iblk1_1_apply]

end

section
variable (V : (c : Dev nD) → (b : Ref sig .tc) → Buf (Elt Ideal) ((c : Thread nD τ).loc b))

/-! ## The scratch accumulator, point by point -/

/-- At the first key block (kv = 0) the scratch ends at zero plus that block's share. -/
theorem scr_first (c : Dev nD) (n : ℕ) (hn : n < cfg1.N) (h0 : n % 4 = 0) (p : Fin 128) (o : Fin 64) :
    (outsAt1 V c n hn).2 (ix2 p o)
      = 0 + blockSum (V c main_v4) (V c main_v5) ⟨n / 4, by have : n < 16 := lt_of_lt_of_eq hn N_1; omega⟩ p o ⟨n % 4, Nat.mod_lt _ (by norm_num)⟩ := by
  have e := outsAt1_A V c ⟨n, hn⟩ h0 (by show ¬n % 4 = 3; omega)
  refine (congrArg (fun z => z.2 (ix2 p o)) e).trans ?_
  dsimp only
  rw [sout1_A_eq]
  refine (point_apply V c ⟨n, hn⟩ _ p o).trans ?_
  rw [pay2_apply]

/-- At a later key block the scratch ends at what the point before left plus the block's share. -/
theorem scr_next (c : Dev nD) (n : ℕ) (hn : n < cfg1.N) (h0 : ¬n % 4 = 0) (h1 : ¬n % 4 = 3) (p : Fin 128) (o : Fin 64) :
    (outsAt1 V c n hn).2 (ix2 p o)
      = (outsAt1 V c (n - 1) (Nat.lt_of_le_of_lt (Nat.sub_le _ _) hn)).2 (ix2 p o)
        + blockSum (V c main_v4) (V c main_v5) ⟨n / 4, by have : n < 16 := lt_of_lt_of_eq hn N_1; omega⟩ p o ⟨n % 4, Nat.mod_lt _ (by norm_num)⟩ := by
  have e := outsAt1_B V c ⟨n, hn⟩ h0 h1
  refine (congrArg (fun z => z.2 (ix2 p o)) e).trans ?_
  dsimp only
  rw [sout1_B_eq]
  exact point_apply V c ⟨n, hn⟩ _ p o

/-- At the last key block (kv = 3) the result's staging buffer receives what the point before left plus the block's share. -/
theorem out_last (c : Dev nD) (n : ℕ) (hn : n < cfg1.N) (h1 : n % 4 = 3) (p : Fin 128) (o : Fin 64) :
    (outsAt1 V c n hn).1 (ix2 p o)
      = (outsAt1 V c (n - 1) (Nat.lt_of_le_of_lt (Nat.sub_le _ _) hn)).2 (ix2 p o)
        + blockSum (V c main_v4) (V c main_v5) ⟨n / 4, by have : n < 16 := lt_of_lt_of_eq hn N_1; omega⟩ p o ⟨n % 4, Nat.mod_lt _ (by norm_num)⟩ := by
  have e := outsAt1_C V c ⟨n, hn⟩ (by show ¬n % 4 = 0; omega) h1
  refine (congrArg (fun z => z.1 (ix2 p o)) e).trans ?_
  dsimp only
  rw [out1_C_eq]
  exact point_apply V c ⟨n, hn⟩ _ p o

/-- So at a write-back point the block written back is the four shares of its row block. -/
theorem out_at_flush (c : Dev nD) (t : Fin cfg1.N) (h3 : t.val % 4 = 3) (p : Fin 128) (o : Fin 64) :
    (outsAt1 V c t.val t.isLt).1 (ix2 p o)
      = rowSim (V c main_v4) (V c main_v5) ⟨t.val / 4, by have : t.val < 16 := lt_of_lt_of_eq t.isLt N_1; omega⟩ p o := by
  have hN : t.val < 16 := lt_of_lt_of_eq t.isLt N_1
  have hlt : ∀ k, t.val - k < cfg1.N := fun k => Nat.lt_of_le_of_lt (Nat.sub_le _ _) t.isLt
  rw [out_last V c t.val t.isLt h3 p o,
    scr_next V c (t.val - 1) (hlt 1) (by omega) (by omega) p o,
    scr_next V c (t.val - 1 - 1) (Nat.lt_of_le_of_lt (Nat.sub_le _ _) (hlt 1)) (by omega) (by omega) p o,
    scr_first V c (t.val - 1 - 1 - 1) (Nat.lt_of_le_of_lt (Nat.sub_le _ _) (Nat.lt_of_le_of_lt (Nat.sub_le _ _) (hlt 1))) (by omega) p o]
  unfold rowSim
  have f0 : ∀ (h : (t.val - 1 - 1 - 1) / 4 < 4) (h' : (t.val - 1 - 1 - 1) % 4 < 4),
      blockSum (V c main_v4) (V c main_v5) ⟨(t.val - 1 - 1 - 1) / 4, h⟩ p o ⟨(t.val - 1 - 1 - 1) % 4, h'⟩
        = blockSum (V c main_v4) (V c main_v5) ⟨t.val / 4, by omega⟩ p o 0 := fun h h' => by
    congr 1 <;> apply Fin.ext <;> (try dsimp only) <;> (try simp only [Fin.val_zero]) <;> omega
  have f1 : ∀ (h : (t.val - 1 - 1) / 4 < 4) (h' : (t.val - 1 - 1) % 4 < 4),
      blockSum (V c main_v4) (V c main_v5) ⟨(t.val - 1 - 1) / 4, h⟩ p o ⟨(t.val - 1 - 1) % 4, h'⟩
        = blockSum (V c main_v4) (V c main_v5) ⟨t.val / 4, by omega⟩ p o 1 := fun h h' => by
    congr 1 <;> apply Fin.ext <;> (try dsimp only) <;> (try simp only [Fin.val_one]) <;> omega
  have f2 : ∀ (h : (t.val - 1) / 4 < 4) (h' : (t.val - 1) % 4 < 4),
      blockSum (V c main_v4) (V c main_v5) ⟨(t.val - 1) / 4, h⟩ p o ⟨(t.val - 1) % 4, h'⟩
        = blockSum (V c main_v4) (V c main_v5) ⟨t.val / 4, by omega⟩ p o 2 := fun h h' => by
    congr 1 <;> apply Fin.ext <;> (try dsimp only) <;> (try simp only [Fin.val_two]) <;> omega
  have f3 : ∀ (h' : t.val % 4 < 4),
      blockSum (V c main_v4) (V c main_v5) ⟨t.val / 4, by omega⟩ p o ⟨t.val % 4, h'⟩
        = blockSum (V c main_v4) (V c main_v5) ⟨t.val / 4, by omega⟩ p o 3 := fun h' => by
    congr 1; apply Fin.ext; show t.val % 4 = 3; exact h3
  rw [f0, f1, f2, f3]

/-! ## From the blocks to the array -/

/-- WHAT A WRITE-BACK POINT WRITES BACK is its block of `simArr` of the two operands as the region finds them. -/
theorem flushed1_eq (c : Dev nD) (t : Fin cfg1.N) (hf : (cfg1.win 2).flush t = true) :
    (dat1 (F := Ideal) V c).flushed 2 t = ((cfg1.win 2).blk t).view.read (Elt Ideal) (simArr (V c main_v4) (V c main_v5)) := by
  have h3 : t.val % 4 = 3 := (flush1_2 t).mp hf
  have hN : t.val < 16 := lt_of_lt_of_eq t.isLt N_1
  obtain ⟨-, -, -, -, -, -, e0, e1⟩ := idx_facts1 t
  show (cfg1.win 2).cut (grid1.coords t) ((dat1 V c).after 2 t) = _
  rw [after1_2]
  funext j
  obtain ⟨p, o, rfl⟩ : ∃ (p : Fin 128) (o : Fin 64), j = ix2 p o := ⟨j 0, j 1, eq_ix2 j⟩
  show (outsAt1 V c t.val t.isLt).1 (ix2 p o) = simArr (V c main_v4) (V c main_v5) (((cfg1.win 2).blk t).view.emb (ix2 p o))
  rw [out_at_flush V c t h3 p o]
  have c0 : ((((cfg1.win 2).blk t).view.emb (ix2 p o)) 0).val = t.val / 4 * 128 + p.val := by
    show win1_2.index t (0 : Fin 2) * 128 + 1 * p.val = _; omega
  have c1 : ((((cfg1.win 2).blk t).view.emb (ix2 p o)) 1).val = o.val := by
    show win1_2.index t (1 : Fin 2) * 64 + 1 * o.val = _; omega
  unfold simArr
  have hp := p.isLt
  congr 1 <;> apply Fin.ext <;> (try dsimp only) <;> simp only [c0, c1] <;> omega

/-- An index of the array is in a point's block iff each coordinate is in the block's range. -/
theorem mem_blk1 (t : Fin cfg1.N) (i : S512x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v6).slice (win1_2.rect t)).set ↔ _
  rw [View.set_slice_whole, Rect.mem_set_unit]
  exact Iff.rfl

/-- Every row is in the block of the write-back point of its row block. -/
theorem cover1 (i : S512x64.Idx) : ∃ t : Fin cfg1.N, (cfg1.win 2).flush t = true ∧ i ∈ ((cfg1.win 2).blk t).view.set := by
  have hi0 : (i 0).val < 512 := idx2_lt0 i
  have hi1 : (i 1).val < 64 := idx2_lt1 i
  have ht : 4 * ((i 0).val / 128) + 3 < cfg1.N := by rw [show cfg1.N = 16 from N_1]; omega
  refine ⟨⟨4 * ((i 0).val / 128) + 3, ht⟩, (flush1_2 _).mpr (by show (4 * ((i 0).val / 128) + 3) % 4 = 3; omega), ?_⟩
  obtain ⟨-, -, -, -, -, -, e0, e1⟩ := idx_facts1 ⟨4 * ((i 0).val / 128) + 3, ht⟩
  have e0' : win1_2.index ⟨4 * ((i 0).val / 128) + 3, ht⟩ (0 : Fin 2) = (4 * ((i 0).val / 128) + 3) / 4 := e0
  rw [mem_blk1]
  intro a
  match a with
  | ⟨0, _⟩ => show win1_2.index ⟨4 * ((i 0).val / 128) + 3, ht⟩ (0 : Fin 2) * 128 ≤ (i 0).val ∧ (i 0).val < win1_2.index ⟨4 * ((i 0).val / 128) + 3, ht⟩ (0 : Fin 2) * 128 + 128; omega
  | ⟨1, _⟩ => show win1_2.index ⟨4 * ((i 0).val / 128) + 3, ht⟩ (1 : Fin 2) * 64 ≤ (i 1).val ∧ (i 1).val < win1_2.index ⟨4 * ((i 0).val / 128) + 3, ht⟩ (1 : Fin 2) * 64 + 64; omega

/-- THE ARRAY after the second pallas_call. -/
theorem final1 (c : Dev nD) : (dat1 (F := Ideal) V c).arrAt 2 cfg1.N = simArr (V c main_v4) (V c main_v5) :=
  (dat1 (F := Ideal) V c).arrAt_eq_of_cover 2 (simArr (V c main_v4) (V c main_v5)) (fun t hf => flushed1_eq V c t hf) cover1

end

end Cert.KernelIdeal.Hand

end
-- ==== Proof.KLayout.lean ====
/-
  The kernel's layout operations on whole arrays, read at an index. Each is a re-indexing, so it is stated for
  values of any type, and for any proof of the shape side condition:
    the second argument with its last two axes swapped and flattened to [1024, 1024] has, at row p and
    column k * 64 + o, the entry T(p, o, k);
    the [512, 1024] projection cut into [512, 16, 64] and transposed to [16, 512, 64] or to [16, 64, 512] has, at
    (k, n, o) or (k, o, n), the entry of row n and column k * 64 + o;
    two arrays of 1024 and 64 columns joined along the columns have, at column q, the first array's entry when
    q < 1024 and the second's at column q - 1024 otherwise.
-/
import proofs.«111438_j33414845562989_2_alg».proof.Proof.Gen.KernelIdeal
import proofs.«111438_j33414845562989_2_alg».proof.Proof.Spec
import proofs.«111438_j33414845562989_2_alg».proof.Proof.SpecLaws
import Idealize.ShloMosaic.Lib.Pipeline.Value
import Idealize.ShloMosaic.Lib.ValueIdx
import Idealize.ShloMosaic.Lib.ValueLayout

noncomputable section

namespace Cert.KernelIdeal.Lay

open Idealize.ShloMosaic Idealize.ShloMosaic.ValueIdx Cert.KernelIdeal

variable {α : Type}

/-- The second argument, last two axes swapped, then flattened: row p, column k * 64 + o is T(p, o, k).
    The flattening keeps the row-major position, (p * 16 + k) * 64 + o = p * 1024 + (k * 64 + o). -/
theorem tperm_apply (T : S1024x64x16.Idx → α) (h₁ : S1024x64x16.Transposes [0, 2, 1] S1024x16x64)
    (h₂ : S1024x16x64.ShapeCasts S1024x1024) (p : Fin 1024) (k : Fin 16) (o : Fin 64) :
    shapeCast S1024x1024 (transpose S1024x16x64 [0, 2, 1] T h₁) h₂
        (ix2 p ⟨k.val * 64 + o.val, by have := k.isLt; have := o.isLt; omega⟩)
      = T (ix3 p o k) := by
  have hp := p.isLt; have hk := k.isLt; have ho := o.isLt
  rw [shapeCast_apply (transpose S1024x16x64 [0, 2, 1] T h₁) h₂ _ (ix3 p k o) (by
    rw [Shape.rowMajor_val_three, Shape.rowMajor_val_two]
    show (p.val * 16 + k.val) * 64 + o.val = p.val * 1024 + (k.val * 64 + o.val)
    omega)]
  exact transpose_ix3_021_apply T h₁ p k o

/-- The [512, 1024] array cut into [512, 16, 64]: entry (n, k, o) is the entry of row n, column k * 64 + o. -/
theorem cut_apply (P : S512x1024.Idx → α) (h₁ : S512x1024.ShapeCasts S512x16x64)
    (n : Fin 512) (k : Fin 16) (o : Fin 64) :
    shapeCast S512x16x64 P h₁ (ix3 n k o)
      = P (ix2 n ⟨k.val * 64 + o.val, by have := k.isLt; have := o.isLt; omega⟩) := by
  have hn := n.isLt; have hk := k.isLt; have ho := o.isLt
  exact shapeCast_apply P h₁ _ _ (by
    rw [Shape.rowMajor_val_two, Shape.rowMajor_val_three]
    show n.val * 1024 + (k.val * 64 + o.val) = (n.val * 16 + k.val) * 64 + o.val
    omega)

/-- The cut array with its first two axes swapped: entry (k, n, o) is the entry of row n, column k * 64 + o. -/
theorem cut_102_apply (P : S512x1024.Idx → α) (h₁ : S512x1024.ShapeCasts S512x16x64)
    (h₂ : S512x16x64.Transposes [1, 0, 2] S16x512x64) (k : Fin 16) (n : Fin 512) (o : Fin 64) :
    transpose S16x512x64 [1, 0, 2] (shapeCast S512x16x64 P h₁) h₂ (ix3 k n o)
      = P (ix2 n ⟨k.val * 64 + o.val, by have := k.isLt; have := o.isLt; omega⟩) := by
  rw [transpose_apply [1, 0, 2] (shapeCast S512x16x64 P h₁) h₂ (ix3 k n o) (ix3 n k o) (fun c => by
    match c with
    | ⟨0, _⟩ => rfl
    | ⟨1, _⟩ => rfl
    | ⟨2, _⟩ => rfl)]
  exact cut_apply P h₁ n k o

/-- The cut array with its axes rotated to [16, 64, 512]: entry (k, o, n) is the entry of row n, column k * 64 + o. -/
theorem cut_120_apply (P : S512x1024.Idx → α) (h₁ : S512x1024.ShapeCasts S512x16x64)
    (h₃ : S512x16x64.Transposes [1, 2, 0] S16x64x512) (k : Fin 16) (o : Fin 64) (n : Fin 512) :
    transpose S16x64x512 [1, 2, 0] (shapeCast S512x16x64 P h₁) h₃ (ix3 k o n)
      = P (ix2 n ⟨k.val * 64 + o.val, by have := k.isLt; have := o.isLt; omega⟩) := by
  rw [transpose_apply [1, 2, 0] (shapeCast S512x16x64 P h₁) h₃ (ix3 k o n) (ix3 n k o) (fun c => by
    match c with
    | ⟨0, _⟩ => rfl
    | ⟨1, _⟩ => rfl
    | ⟨2, _⟩ => rfl)]
  exact cut_apply P h₁ n k o

/-- Two arrays joined along the columns, read at column q: the first array left of column 1024, the second,
    at column q - 1024, from there on. -/
theorem join_apply (a : S512x1024.Idx → α) (b : S512x64.Idx → α)
    (h : Shape.Concatenates [S512x1024, S512x64] S512x1088 1) (n : Fin 512) (q : Fin 1088) :
    concatenate S512x1088 1 [⟨S512x1024, a⟩, ⟨S512x64, b⟩] h (ix2 n q)
      = if hq : q.val < 1024 then a (ix2 n ⟨q.val, hq⟩)
        else b (ix2 n ⟨q.val - 1024, by have := q.isLt; omega⟩) := by
  have hq' := q.isLt
  by_cases hq : q.val < 1024
  · rw [dif_pos hq]
    exact concatenate_pair_apply_left (t := S512x1088) (s₁ := S512x1024) (s₂ := S512x64) (1 : Fin 2) a b h
      (ix2 n q) rfl (ix2 n ⟨q.val, hq⟩) (fun c => by
        match c with
        | ⟨0, _⟩ => rfl
        | ⟨1, _⟩ => rfl)
  · rw [dif_neg hq]
    exact concatenate_pair_apply_right (t := S512x1088) (s₁ := S512x1024) (s₂ := S512x64) (1 : Fin 2) a b h
      (ix2 n q) rfl rfl (ix2 n ⟨q.val - 1024, by omega⟩) (fun c hc => by
        match c with
        | ⟨0, _⟩ => rfl
        | ⟨1, _⟩ => exact absurd rfl hc) (by show (q.val - 1024) + 1024 = q.val; omega)

end Cert.KernelIdeal.Lay

end
-- ==== Proof.SpecBlocks.lean ====
/-
  The similarity mass of a row, summed block by block: the 512 rows j are taken in 4 blocks of 128, block kv holding
  the rows kv * 128 + q, and the four block sums are added one after another onto zero. A row's own term is masked
  out by comparing the two row numbers; rows are equal exactly when their numbers are.
-/
import proofs.«111438_j33414845562989_2_alg».proof.Proof.Spec
import proofs.«111438_j33414845562989_2_alg».proof.Proof.SpecLaws

open scoped BigOperators

noncomputable section

namespace Cert.Spec

open Idealize.ShloMosaic Idealize.ShloMosaic.ValueIdx

/-- Block kv's share of the similarity mass of row i * 128 + p in feature o: the sum over the 128 rows
    kv * 128 + q of exp (-(the L1 distance of the two rows)), the row's own term left out. -/
def simBlock (x : SX.Idx → EReal) (T : ST.Idx → EReal) (i : Fin 4) (p : Fin 128) (o : Fin 64) (kv : Fin 4) : EReal :=
  ∑ q : Fin 128,
    Ideal.exp (-(∑ k : Fin 16,
        aabs (proj x T ⟨i.val * 128 + p.val, by have := i.isLt; have := p.isLt; omega⟩ o k
          - proj x T ⟨kv.val * 128 + q.val, by have := kv.isLt; have := q.isLt; omega⟩ o k)))
      * (if i.val * 128 + p.val = kv.val * 128 + q.val then 0 else 1)

/-- A block's share in the specification's words. -/
theorem simBlock_eq (x : SX.Idx → EReal) (T : ST.Idx → EReal) (i : Fin 4) (p : Fin 128) (o : Fin 64) (kv : Fin 4) :
    simBlock x T i p o kv
      = ∑ q : Fin 128,
          Ideal.exp (-(dist x T ⟨i.val * 128 + p.val, by have := i.isLt; have := p.isLt; omega⟩
              ⟨kv.val * 128 + q.val, by have := kv.isLt; have := q.isLt; omega⟩ o))
            * offDiag ⟨i.val * 128 + p.val, by have := i.isLt; have := p.isLt; omega⟩
                ⟨kv.val * 128 + q.val, by have := kv.isLt; have := q.isLt; omega⟩ := by
  unfold simBlock
  refine Finset.sum_congr rfl fun q _ => ?_
  unfold offDiag dist
  simp only [Fin.mk.injEq]

/-- The four block sums, added one after another onto zero, are the similarity mass of the row. -/
theorem sim_blocks (x : SX.Idx → EReal) (T : ST.Idx → EReal) (i : Fin 4) (p : Fin 128) (o : Fin 64) :
    (((0 + simBlock x T i p o 0) + simBlock x T i p o 1) + simBlock x T i p o 2) + simBlock x T i p o 3
      = sim x T ⟨i.val * 128 + p.val, by have := i.isLt; have := p.isLt; omega⟩ o := by
  rw [zero_add, simBlock_eq, simBlock_eq, simBlock_eq, simBlock_eq]
  unfold sim
  rw [sum_blocks, Fin.sum_univ_four]

end Cert.Spec

end
-- ==== Proof.KI.Value.lean ====
/- The value of the idealized kernel program's result array, read back through the fold of buffer contents: the
   first pallas_call's array is the specification's projection, laid out with column k * 64 + o for feature o and
   kernel dimension k; the two operands of the second pallas_call are that projection transposed; its result, block
   sum by block sum, is the specification's similarity mass; and the join of the first argument with it is the
   specification's result array. -/
import proofs.«111438_j33414845562989_2_alg».proof.Proof.KI.ValHost
import proofs.«111438_j33414845562989_2_alg».proof.Proof.KI.Val0
import proofs.«111438_j33414845562989_2_alg».proof.Proof.KI.Val1Defs
import proofs.«111438_j33414845562989_2_alg».proof.Proof.KI.Val1
import proofs.«111438_j33414845562989_2_alg».proof.Proof.KLayout
import proofs.«111438_j33414845562989_2_alg».proof.Proof.SpecBlocks

set_option maxRecDepth 16384

open scoped BigOperators

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec

variable (m : (ℓ : Loc nD τ sig) → Buf (Elt Ideal) ℓ) (ρ : Dev nD → PrngReg) (c : Dev nD)

/-! ## The projection -/

/-- The product of a with w at row n, column k * 64 + o, when a is x and column k * 64 + o of w is T(., o, k):
    the specification's projection. -/
theorem matProd_at (a : S512x1024.Idx → EReal) (w : S1024x1024.Idx → EReal)
    (x : Cert.Spec.SX.Idx → EReal) (T : Cert.Spec.ST.Idx → EReal) (ha : a = x)
    (hw : ∀ (p : Fin 1024) (k : Fin 16) (o : Fin 64),
      w (ix2 p ⟨k.val * 64 + o.val, by have := k.isLt; have := o.isLt; omega⟩) = T (ix3 p o k))
    (n : Fin 512) (k : Fin 16) (o : Fin 64) :
    matProd a w (ix2 n ⟨k.val * 64 + o.val, by have := k.isLt; have := o.isLt; omega⟩)
      = Cert.Spec.proj x T n o k := by
  subst ha
  unfold matProd Cert.Spec.proj
  refine Finset.sum_congr rfl fun p _ => ?_
  show a (ix2 n p) * w (ix2 p ⟨k.val * 64 + o.val, by have := k.isLt; have := o.isLt; omega⟩) = _
  rw [hw]

/-- The first pallas_call's array at row n, column k * 64 + o is the specification's projection of row n in feature o,
    kernel dimension k: the matrix product's column k * 64 + o of the transposed and flattened second argument is
    T(., o, k). -/
theorem proj_at (n : Fin 512) (k : Fin 16) (o : Fin 64) :
    (W2 (F := Ideal) m ρ c (Proc.devRef .tc main_v2) : S512x1024.Idx → EReal)
        (ix2 n ⟨k.val * 64 + o.val, by have := k.isLt; have := o.isLt; omega⟩)
      = Cert.Spec.proj (m ((c : Thread nD τ).loc main_arg0)) (m ((c : Thread nD τ).loc main_arg1)) n o k := by
  rw [W2_v2, final0 (V1 m ρ) c]
  exact matProd_at _ _ _ _ (W1_arg0 m ρ c)
    (fun p k o => (congrFun (W1_v1 m ρ c) _).trans (Cert.KernelIdeal.Lay.tperm_apply _ _ _ p k o)) n k o

/-! ## The two operands of the second pallas_call -/

/-- The query-side operand [16, 512, 64] at (k, n, o) is the projection of row n. -/
theorem v4_at (k : Fin 16) (n : Fin 512) (o : Fin 64) :
    (V3 (F := Ideal) m ρ c main_v4 : S16x512x64.Idx → EReal) (ix3 k n o)
      = Cert.Spec.proj (m ((c : Thread nD τ).loc main_arg0)) (m ((c : Thread nD τ).loc main_arg1)) n o k := by
  show (W3 (F := Ideal) m ρ c (Proc.devRef .tc main_v4) : S16x512x64.Idx → EReal) (ix3 k n o) = _
  rw [W3_v4, Cert.KernelIdeal.Lay.cut_102_apply]
  exact proj_at m ρ c n k o

/-- The key-side operand [16, 64, 512] at (k, o, n) is the projection of row n. -/
theorem v5_at (k : Fin 16) (o : Fin 64) (n : Fin 512) :
    (V3 (F := Ideal) m ρ c main_v5 : S16x64x512.Idx → EReal) (ix3 k o n)
      = Cert.Spec.proj (m ((c : Thread nD τ).loc main_arg0)) (m ((c : Thread nD τ).loc main_arg1)) n o k := by
  show (W3 (F := Ideal) m ρ c (Proc.devRef .tc main_v5) : S16x64x512.Idx → EReal) (ix3 k o n) = _
  rw [W3_v5, Cert.KernelIdeal.Lay.cut_120_apply]
  exact proj_at m ρ c n k o

/-! ## The second pallas_call's result as the similarity mass -/

/-- One key block's share, over the two operands, is the specification's block share. -/
theorem blockSum_eq (i : Fin 4) (p : Fin 128) (o : Fin 64) (kv : Fin 4) :
    blockSum (V3 (F := Ideal) m ρ c main_v4) (V3 (F := Ideal) m ρ c main_v5) i p o kv
      = Cert.Spec.simBlock (m ((c : Thread nD τ).loc main_arg0)) (m ((c : Thread nD τ).loc main_arg1)) i p o kv := by
  unfold blockSum Cert.Spec.simBlock
  refine Finset.sum_congr rfl fun q _ => ?_
  refine congrArg₂ (· * ·) (congrArg (fun d : EReal => Ideal.exp (-d)) (Finset.sum_congr rfl fun k _ => ?_)) rfl
  rw [v4_at, v5_at]

/-- The four block shares added onto zero are the similarity mass of row i * 128 + p. -/
theorem rowSim_eq (i : Fin 4) (p : Fin 128) (o : Fin 64) :
    rowSim (V3 (F := Ideal) m ρ c main_v4) (V3 (F := Ideal) m ρ c main_v5) i p o
      = Cert.Spec.sim (m ((c : Thread nD τ).loc main_arg0)) (m ((c : Thread nD τ).loc main_arg1))
          ⟨i.val * 128 + p.val, by have := i.isLt; have := p.isLt; omega⟩ o := by
  unfold rowSim
  rw [blockSum_eq, blockSum_eq, blockSum_eq, blockSum_eq]
  exact Cert.Spec.sim_blocks _ _ i p o

/-- The whole result at (n, o): row n is row (n / 128) * 128 + n % 128. -/
theorem simArr_at (n : Fin 512) (o : Fin 64) :
    simArr (V3 (F := Ideal) m ρ c main_v4) (V3 (F := Ideal) m ρ c main_v5) (ix2 n o)
      = Cert.Spec.sim (m ((c : Thread nD τ).loc main_arg0)) (m ((c : Thread nD τ).loc main_arg1)) n o := by
  have hn := n.isLt
  show rowSim (V3 (F := Ideal) m ρ c main_v4) (V3 (F := Ideal) m ρ c main_v5)
      ⟨n.val / 128, by omega⟩ ⟨n.val % 128, Nat.mod_lt _ (by norm_num)⟩ o = _
  rw [rowSim_eq]
  congr 1
  apply Fin.ext
  show n.val / 128 * 128 + n.val % 128 = n.val
  omega

/-! ## The result array -/

/-- The joined array is the specification's result, given that the second pallas_call's array is the block sums over
    its two operands: the first argument left of column 1024, the similarity mass from there on. -/
theorem W5_main_v7_of
    (hfinal1 : (dat1 (F := Ideal) (V3 m ρ) c).arrAt 2 cfg1.N
      = simArr (V3 (F := Ideal) m ρ c main_v4) (V3 (F := Ideal) m ρ c main_v5)) :
    (W5 (F := Ideal) m ρ c (Proc.devRef .tc main_v7) : S512x1088.Idx → EReal)
      = Cert.Spec.G (m ((c : Thread nD τ).loc main_arg0)) (m ((c : Thread nD τ).loc main_arg1)) := by
  funext i
  obtain ⟨n, q, rfl⟩ : ∃ (n : Fin 512) (q : Fin 1088), i = ix2 n q := ⟨i 0, i 1, eq_ix2 i⟩
  show _ = Cert.Spec.Gat (m ((c : Thread nD τ).loc main_arg0)) (m ((c : Thread nD τ).loc main_arg1)) n q
  rw [W5_v7, Cert.KernelIdeal.Lay.join_apply]
  unfold Cert.Spec.Gat
  by_cases hq : q.val < 1024
  · rw [dif_pos hq, dif_pos hq, W4_arg0]
  · rw [dif_neg hq, dif_neg hq, W4_v6, hfinal1, simArr_at]

/-- THE VALUE: the joined array is the specification's result over the two arguments as launched. -/
theorem W5_main_v7 :
    (W5 (F := Ideal) m ρ c (Proc.devRef .tc main_v7) : S512x1088.Idx → EReal)
      = Cert.Spec.G (m ((c : Thread nD τ).loc main_arg0)) (m ((c : Thread nD τ).loc main_arg1)) :=
  W5_main_v7_of m ρ c (final1 (V3 m ρ) c)

end Cert.KernelIdeal.Hand

end
-- ==== Proof.RefValue.lean ====
/-
  The reference's result read against the specification.

  The reference computes, for x : [512, 1024] and T : [1024, 64, 16]:
    M = (x times T flattened to [1024, 1024]) reshaped to [512, 64, 16], so M(n, o, k) = sum over p of x(n, p) * T(p, o, k);
    norm(a, b, o) = sum over k of |M(b, o, k) - M(a, o, k)|;
    mask(a, b) = 1 - [a = b], the bracket being the comparison of the two row numbers as 32-bit words;
    o_b(n, o) = sum over j of exp (-norm(n, j, o)) * mask(n, j);
  and joins x and o_b along the columns. Each of these is identified with the specification's proj, dist, offDiag and
  sim at an index, the two sums starting from the zero word and the absolute value being symmetric in its difference,
  and the joined array is read at a column on either side of 1024.
-/
import proofs.«111438_j33414845562989_2_alg».proof.Proof.Gen.ReferenceIdeal.Read
import proofs.«111438_j33414845562989_2_alg».proof.Proof.Spec
import proofs.«111438_j33414845562989_2_alg».proof.Proof.SpecLaws

open scoped BigOperators

noncomputable section

namespace Cert.ReferenceIdeal.RefValue

open Cert.ReferenceIdeal Cert.ReferenceIdeal.Gen Cert.ReferenceIdeal.Read Idealize.ShloMosaic Idealize.ShloMosaic.ValueIdx

/-- The word 0x3F800000 is the number one: exponent field 127, fraction 0, so 2^23 * 2^(127 - 127 - 23). -/
theorem one_f32 : Ideal.ofBits .f32 0x3F800000#32 = 1 := by
  simp [Ideal.ofBits, Ideal.ieee]
  rw [← EReal.coe_mul]
  norm_num

/-- The projection: the matrix product of x with T flattened to [1024, 1024], reshaped to [512, 64, 16], has at
    (n, o, k) the entry of column o * 16 + k, and that column of the flattened T is T(., o, k). -/
theorem proj_eq (x : (⟨S512x1024, .f32⟩ : BufTy).Contents (Elt Ideal))
    (T : (⟨S1024x64x16, .f32⟩ : BufTy).Contents (Elt Ideal)) (n : Fin 512) (o : Fin 64) (k : Fin 16) :
    val_main_v2 (F := Ideal) x T (ix3 n o k) = Cert.Spec.proj x T n o k := by
  have hn := n.isLt; have ho := o.isLt; have hk := k.isLt
  rw [val_main_v2_apply, val_main_v1_apply]
  unfold Cert.Spec.proj
  refine Finset.sum_congr rfl fun p _ => ?_
  have hp := p.isLt
  rw [val_main_v0_apply]
  have e1 : lidx_main_v1 (idx_main_v2 (ix3 n o k)) p = ix2 n p := funext fun a => Fin.ext (by
    match a with
    | ⟨0, _⟩ => show ((n.val * 64 + o.val) * 16 + k.val) / 1024 = n.val; omega
    | ⟨1, _⟩ => rfl)
  have e2 : idx_main_v0 (ridx_main_v1 (idx_main_v2 (ix3 n o k)) p) = ix3 p o k := funext fun a => Fin.ext (by
    match a with
    | ⟨0, _⟩ => show (p.val * 1024 + ((n.val * 64 + o.val) * 16 + k.val) % 1024) / 1024 = p.val; omega
    | ⟨1, _⟩ => show (p.val * 1024 + ((n.val * 64 + o.val) * 16 + k.val) % 1024) / 16 % 64 = o.val; omega
    | ⟨2, _⟩ => show (p.val * 1024 + ((n.val * 64 + o.val) * 16 + k.val) % 1024) % 16 = k.val; omega)
  rw [e1, e2]

/-- The distance: entry (a, b, o) of the reduced array is the sum over k of |M(b, o, k) - M(a, o, k)|, the
    absolute value being symmetric, and the sum starts from the zero word. -/
theorem dist_eq (x : (⟨S512x1024, .f32⟩ : BufTy).Contents (Elt Ideal))
    (T : (⟨S1024x64x16, .f32⟩ : BufTy).Contents (Elt Ideal)) (a b : Fin 512) (o : Fin 64) :
    val_main_v9 (F := Ideal) x T (ix3 a b o) = Cert.Spec.dist x T a b o := by
  rw [val_main_v9_apply, val_main_cst_apply, Ideal.ofBits_def, Ideal.ofBits_zero_f32, zero_add]
  unfold Cert.Spec.dist
  refine Finset.sum_congr rfl fun k _ => ?_
  rw [val_main_v8_apply, val_main_v7_apply, val_main_v5_apply, val_main_v3_apply, val_main_v6_apply,
    val_main_v4_apply]
  have e5 : idx_main_v3 (idx_main_v5 (idx_main_v9 (ix3 a b o) k)) = ix3 b o k := funext fun d => Fin.ext (by
    match d with
    | ⟨0, _⟩ => rfl
    | ⟨1, _⟩ => rfl
    | ⟨2, _⟩ => rfl)
  have e6 : idx_main_v4 (idx_main_v6 (idx_main_v9 (ix3 a b o) k)) = ix3 a o k := funext fun d => Fin.ext (by
    match d with
    | ⟨0, _⟩ => rfl
    | ⟨1, _⟩ => rfl
    | ⟨2, _⟩ => rfl)
  rw [e5, e6, proj_eq, proj_eq]
  exact Cert.Spec.aabs_sub_comm _ _

/-- Two row numbers below 512, as 32-bit words (the first with the zero word added), are equal words exactly
    when they are equal numbers. -/
theorem word_eq (a b : Fin 512) :
    (BitVec.ofNat 32 a.val + 0#32 == BitVec.ofNat 32 b.val) = decide (a = b) := by
  have ha := a.isLt; have hb := b.isLt
  rw [BitVec.add_zero]
  by_cases h : a = b
  · subst h; simp
  · have hne : BitVec.ofNat 32 a.val ≠ BitVec.ofNat 32 b.val := by
      intro hh
      apply h; apply Fin.ext
      have := congrArg BitVec.toNat hh
      simp only [BitVec.toNat_ofNat] at this
      omega
    simp [h, hne]

/-- The mask: one minus the indicator of the diagonal, the indicator being the comparison bit read as a number. -/
theorem mask_eq (a b : Fin 512) (o : Fin 64) :
    val_main_v21 (F := Ideal) (ix3 a b o) = Cert.Spec.offDiag a b := by
  rw [val_main_v21_apply, val_main_v20_apply, val_main_v19_apply, val_main_v18_apply, val_main_cst_0_apply,
    val_main_v17_apply, val_main_v16_apply, val_main_v15_apply, val_main_v12_apply, val_main_v14_apply,
    val_main_c_apply, val_main_v13_apply]
  show (Ideal.ofBits .f32 0x3F800000#32 : EReal)
      - (((BitVec.ofBool (BitVec.ofNat 32 a.val + 0#32 == BitVec.ofNat 32 b.val)).toNat : ℝ) : EReal)
    = Cert.Spec.offDiag a b
  rw [one_f32, word_eq]
  unfold Cert.Spec.offDiag
  by_cases h : a = b
  · simp [h]
    rw [← EReal.coe_one, ← EReal.coe_sub, sub_self, EReal.coe_zero]
  · simp [h]

/-- The similarity mass: entry (n, o) of the second reduction is the sum over j of exp (-dist) times the mask. -/
theorem sim_eq (x : (⟨S512x1024, .f32⟩ : BufTy).Contents (Elt Ideal))
    (T : (⟨S1024x64x16, .f32⟩ : BufTy).Contents (Elt Ideal)) (n : Fin 512) (o : Fin 64) :
    val_main_v23 (F := Ideal) x T (ix2 n o) = Cert.Spec.sim x T n o := by
  rw [val_main_v23_apply, val_main_cst_1_apply, Ideal.ofBits_def, Ideal.ofBits_zero_f32, zero_add]
  unfold Cert.Spec.sim
  refine Finset.sum_congr rfl fun j _ => ?_
  have e : idx_main_v23 (ix2 n o) j = ix3 n j o := funext fun d => Fin.ext (by
    match d with
    | ⟨0, _⟩ => rfl
    | ⟨1, _⟩ => rfl
    | ⟨2, _⟩ => rfl)
  rw [e, val_main_v22_apply, val_main_v11_apply, val_main_v10_apply, dist_eq, mask_eq]
  rfl

/-- The reference's result is the specification's array: at column q < 1024 the concatenation reads x, at
    column q >= 1024 it reads the similarity mass at column q - 1024. -/
theorem ref_eq (x : (⟨S512x1024, .f32⟩ : BufTy).Contents (Elt Ideal))
    (T : (⟨S1024x64x16, .f32⟩ : BufTy).Contents (Elt Ideal)) :
    val_main_v24 (F := Ideal) x T = Cert.Spec.G x T := by
  funext i
  obtain ⟨n, q, rfl⟩ : ∃ (n : Fin 512) (q : Fin 1088), i = ix2 n q := ⟨i 0, i 1, eq_ix2 i⟩
  have hq := q.isLt
  show val_main_v24 (F := Ideal) x T (ix2 n q) = Cert.Spec.Gat x T n q
  unfold val_main_v24 Cert.Spec.Gat
  by_cases h : q.val < 1024
  · rw [dif_pos h]
    exact concatenate_pair_apply_left (t := S512x1088) (s₁ := S512x1024) (s₂ := S512x64) (1 : Fin 2) x _
      concatenates_S512x1024_S512x64_S512x1088_d1 (ix2 n q) rfl (ix2 n ⟨q.val, h⟩) (fun b => by
        match b with
        | ⟨0, _⟩ => rfl
        | ⟨1, _⟩ => rfl)
  · rw [dif_neg h, ← sim_eq]
    exact concatenate_pair_apply_right (t := S512x1088) (s₁ := S512x1024) (s₂ := S512x64) (1 : Fin 2) x _
      concatenates_S512x1024_S512x64_S512x1088_d1 (ix2 n q) rfl rfl
      (ix2 n ⟨q.val - 1024, by omega⟩) (fun b hb => by
        match b with
        | ⟨0, _⟩ => rfl
        | ⟨1, _⟩ => exact absurd rfl hb) (by show (q.val - 1024) + 1024 = q.val; omega)

end Cert.ReferenceIdeal.RefValue

end
-- ==== Proof.lean ====
/- Both programs compute, from x : [512, 1024] and T : [1024, 64, 16], the array [512, 1088] whose first 1024 columns are x
   and whose last 64 columns are, for row n and feature o, the sum over all other rows j of exp(−Σ_k |M(n,o,k) − M(j,o,k)|),
   where M(n,o,k) = Σ_p x(n,p)·T(p,o,k) is the projection (Proof/Spec.lean).

   The kernel program computes M by one pallas_call over two blocks of 256 rows (after transposing and reshaping T on the
   host so that its columns run over (k, o)), reshapes and transposes it into a query-side operand [16, 512, 64] and a
   key-side operand [16, 64, 512], and runs a second pallas_call over a 4 × 4 grid of (row block, key block): each point
   adds to a scratch accumulator the share of its key block, the accumulator is zeroed at the first key block of a row
   block and copied out at the last; the host then concatenates. The reference computes M by one dot_general, the
   distances by broadcasting, and one sum over all 512 rows.

   The two agree on the extended reals with no finiteness hypothesis: |a − b| = |b − a| for all extended reals, and a sum
   over 512 rows is the sum over 4 blocks of 128, the extended reals being a commutative monoid under addition.

   The frames of the two kernel programs (the word-level one and the idealized one: the same text, read at two
   instances) are proved from @main as five segments — host operations, the first pallas_call, host operations, the
   second pallas_call (its invariant carries the scratch accumulator's contents from a grid point to the next), the
   concatenation — with the contents of every unscoped buffer at each boundary a fold from the launch memory
   (Proof/KI/Run.lean, Proof/K/Run.lean). The reference's frame is its run with the result dropped. The idealization
   rewrote nothing, so its conjunct is trivial. -/
import proofs.«111438_j33414845562989_2_alg».proof.Defs
import proofs.«111438_j33414845562989_2_alg».proof.Proof.Gen.Kernel
import proofs.«111438_j33414845562989_2_alg».proof.Proof.Gen.KernelIdeal
import proofs.«111438_j33414845562989_2_alg».proof.Proof.Gen.ReferenceIdeal
import proofs.«111438_j33414845562989_2_alg».proof.Proof.Gen.Pre_finite_inputs
import proofs.«111438_j33414845562989_2_alg».proof.Proof.K.Frame
import proofs.«111438_j33414845562989_2_alg».proof.Proof.KI.Frame
import proofs.«111438_j33414845562989_2_alg».proof.Proof.KI.Value
import proofs.«111438_j33414845562989_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves both arguments as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the specification's array of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v7 (by decide))).trans (Cert.KernelIdeal.Hand.W5_main_v7 m ρ c)
    · exact (h c _ (Cert.KernelIdeal.Hand.mem_uc Cert.KernelIdeal.main_arg0 (by decide))).trans (Cert.KernelIdeal.Hand.W5_main_arg0 m ρ c)
    · exact (h c _ (Cert.KernelIdeal.Hand.mem_uc Cert.KernelIdeal.main_arg1 (by decide))).trans (Cert.KernelIdeal.Hand.W5_main_arg1 m ρ c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
